-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x27 : Shape := ⟨2, ![20000, 27]⟩
abbrev S160000 : Shape := ⟨1, ![160000]⟩
abbrev S20000 : Shape := ⟨1, ![20000]⟩
abbrev S27x512 : Shape := ⟨2, ![27, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S20000x27 : S_.BroadcastsInDim S20000x27 (![] : Fin 0 → Fin S20000x27.rank)
  reducesTo_S20000x27_S_d0_1 : S20000x27.ReducesTo [0, 1] S_
  h_S_ : 0 < S_.numel
  bcast_S_S27x512 : S_.BroadcastsInDim S27x512 (![] : Fin 0 → Fin S27x512.rank)
  reducesTo_S27x512_S_d0_1 : S27x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg10 : FVec F S512x256 .f32) (main_arg11 : FVec F S512x256 .f32) (main_arg12 : FVec F S256 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512x256 .f32 := Host.absf main_arg11
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg7 : FVec F S512x512 .f32) (main_arg8 : FVec F S512x512 .f32) (main_arg9 : FVec F S512 .f32) (main_arg10 : FVec F S512x256 .f32) (main_arg11 : FVec F S512x256 .f32) (main_arg12 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg10 main_arg11 main_arg12 main_v33

def fn {F : FTy → Type} [FloatOps F] (main_arg0 : FVec F S20000x27 .f32) (main_arg1 : IVec S160000 32) (main_arg2 : IVec S160000 32) (main_arg3 : IVec S20000 32) (main_arg4 : FVec F S27x512 .f32) (main_arg5 : FVec F S27x512 .f32) (main_arg6 : FVec F S512 .f32) (main_arg7 : FVec F S512x512 .f32) (main_arg8 : FVec F S512x512 .f32) (main_arg9 : FVec F S512 .f32) (main_arg10 : FVec F S512x256 .f32) (main_arg11 : FVec F S512x256 .f32) (main_arg12 : FVec F S256 .f32) : IVec S_ 1 :=
  let main_v0 : FVec F S20000x27 .f32 := Host.absf main_arg0
  let main_cst : FVec F S_ .f32 := constant S_ .f32 0x7F800000#32
  let main_v1 : FVec F S20000x27 .f32 := broadcastInDim S20000x27 ![] bcast_S_S20000x27 main_cst
  let main_v2 : IVec S20000x27 1 := cmpf .olt main_v0 main_v1
  let main_c : IVec S_ 1 := constantI S_ 1 1#1
  let main_v3 : IVec S_ 1 := (fun x v => Host.reduce IntOp.andi x v reducesTo_S20000x27_S_d0_1 h_S_) main_v2 main_c
  let main_v4 : FVec F S27x512 .f32 := Host.absf main_arg4
  let main_cst_0 : FVec F S_ .f32 := constant S_ .f32 0x7F800000#32
  let main_v5 : FVec F S27x512 .f32 := broadcastInDim S27x512 ![] bcast_S_S27x512 main_cst_0
  let main_v6 : IVec S27x512 1 := cmpf .olt main_v4 main_v5
  let main_c_1 : IVec S_ 1 := constantI S_ 1 1#1
  let main_v7 : IVec S_ 1 := (fun x v => Host.reduce IntOp.andi x v reducesTo_S27x512_S_d0_1 h_S_) main_v6 main_c_1
  let main_v8 : IVec S_ 1 := andi main_v3 main_v7
  let main_v9 : FVec F S27x512 .f32 := Host.absf main_arg5
  let main_cst_2 : FVec F S_ .f32 := constant S_ .f32 0x7F800000#32
  let main_v10 : FVec F S27x512 .f32 := broadcastInDim S27x512 ![] bcast_S_S27x512 main_cst_2
  let main_v11 : IVec S27x512 1 := cmpf .olt main_v9 main_v10
  let main_c_3 : IVec S_ 1 := constantI S_ 1 1#1
  let main_v12 : IVec S_ 1 := (fun x v => Host.reduce IntOp.andi x v reducesTo_S27x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_arg9 main_arg10 main_arg11 main_arg12 main_v13 main_v16
-- ==== Kernel.lean ====
abbrev S20000x27 : Shape := ⟨2, ![20000, 27]⟩
abbrev S160000 : Shape := ⟨1, ![160000]⟩
abbrev S20000 : Shape := ⟨1, ![20000]⟩
abbrev S27x512 : Shape := ⟨2, ![27, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩
abbrev S160000x1 : Shape := ⟨2, ![160000, 1]⟩
abbrev S20000x1 : Shape := ⟨2, ![20000, 1]⟩
abbrev S160000x27 : Shape := ⟨2, ![160000, 27]⟩
abbrev S1x512 : Shape := ⟨2, ![1, 512]⟩
abbrev S20000x512 : Shape := ⟨2, ![20000, 512]⟩
abbrev S1000x27 : Shape := ⟨2, ![1000, 27]⟩
abbrev S1000x512 : Shape := ⟨2, ![1000, 512]⟩
abbrev S160000x512 : Shape := ⟨2, ![160000, 512]⟩
abbrev S1x256 : Shape := ⟨2, ![1, 256]⟩
abbrev S20000x256 : Shape := ⟨2, ![20000, 256]⟩
abbrev S1000x256 : Shape := ⟨2, ![1000, 256]⟩
abbrev S32 : Shape := ⟨1, ![32]⟩
abbrev S32x256 : Shape := ⟨2, ![32, 256]⟩
abbrev S32x1 : Shape := ⟨2, ![32, 1]⟩

abbrev nBuf : Space → Nat
  | .hbm => 99
  | .vmem => 27
  | .smem => 0
  | _ => 0

abbrev bufTy : (tb : Table) → Fin (tcTables nBuf tb) → BufTy
  | .hbm, ⟨0, _⟩ => ⟨S20000x27, .f32⟩
  | .hbm, ⟨1, _⟩ => ⟨S160000, .i32⟩
  | .hbm, ⟨2, _⟩ => ⟨S160000, .i32⟩
  | .hbm, ⟨3, _⟩ => ⟨S20000, .i32⟩
  | .hbm, ⟨4, _⟩ => ⟨S27x512, .f32⟩
  | .hbm, ⟨5, _⟩ => ⟨S27x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S512x256, .f32⟩
  | .hbm, ⟨12, _⟩ => ⟨S256, .f32⟩
  | .hbm, ⟨13, _⟩ => ⟨S_, .f32⟩
  | .hbm, ⟨14, _⟩ => ⟨S160000, .f32⟩
  | .hbm, ⟨15, _⟩ => ⟨S_, .f32⟩
  | .hbm, ⟨16, _⟩ => ⟨S20000, .f32⟩
  | .hbm, ⟨17, _⟩ => ⟨S160000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S20000x1, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x27, .f32⟩
  | .hbm, ⟨35, _⟩ => ⟨S_, .f32⟩
  | .hbm, ⟨36, _⟩ => ⟨S20000x27, .f32⟩
  | .hbm, ⟨37, _⟩ => ⟨S160000x1, .i32⟩
  | .hbm, ⟨38, _⟩ => ⟨S20000x27, .f32⟩
  | .hbm, ⟨39, _⟩ => ⟨S20000x27, .f32⟩
  | .hbm, ⟨40, _⟩ => ⟨S20000x27, .f32⟩
  | .hbm, ⟨41, _⟩ => ⟨S27x512, .bf16⟩
  | .hbm, ⟨42, _⟩ => ⟨S27x512, .bf16⟩
  | .hbm, ⟨43, _⟩ => ⟨S1x512, .f32⟩
  | .hbm, ⟨44, _⟩ => ⟨S20000x512, .f32⟩
  | .hbm, ⟨45, _⟩ => ⟨S_, .i32⟩
  | .hbm, ⟨46, _⟩ => ⟨S160000, .i32⟩
  | .hbm, ⟨47, _⟩ => ⟨S160000, .i1⟩
  | .hbm, ⟨48, _⟩ => ⟨S_, .i32⟩
  | .hbm, ⟨49, _⟩ => ⟨S160000, .i32⟩
  | .hbm, ⟨50, _⟩ => ⟨S160000, .i32⟩
  | .hbm, ⟨51, _⟩ => ⟨S160000, .i32⟩
  | .hbm, ⟨52, _⟩ => ⟨S160000x1, .i32⟩
  | .hbm, ⟨53, _⟩ => ⟨S160000x512, .f32⟩
  | .hbm, ⟨54, _⟩ => ⟨S_, .f32⟩
  | .hbm, ⟨55, _⟩ => ⟨S20000x512, .f32⟩
  | .hbm, ⟨56, _⟩ => ⟨S160000x1, .i32⟩
  | .hbm, ⟨57, _⟩ => ⟨S20000x512, .f32⟩
  | .hbm, ⟨58, _⟩ => ⟨S20000x512, .f32⟩
  | .hbm, ⟨59, _⟩ => ⟨S20000x512, .f32⟩
  | .hbm, ⟨60, _⟩ => ⟨S512x512, .bf16⟩
  | .hbm, ⟨61, _⟩ => ⟨S512x512, .bf16⟩
  | .hbm, ⟨62, _⟩ => ⟨S1x512, .f32⟩
  | .hbm, ⟨63, _⟩ => ⟨S20000x512, .f32⟩
  | .hbm, ⟨64, _⟩ => ⟨S_, .i32⟩
  | .hbm, ⟨65, _⟩ => ⟨S160000, .i32⟩
  | .hbm, ⟨66, _⟩ => ⟨S160000, .i1⟩
  | .hbm, ⟨67, _⟩ => ⟨S_, .i32⟩
  | .hbm, ⟨68, _⟩ => ⟨S160000, .i32⟩
  | .hbm, ⟨69, _⟩ => ⟨S160000, .i32⟩
  | .hbm, ⟨70, _⟩ => ⟨S160000, .i32⟩
  | .hbm, ⟨71, _⟩ => ⟨S160000x1, .i32⟩
  | .hbm, ⟨72, _⟩ => ⟨S160000x512, .f32⟩
  | .hbm, ⟨73, _⟩ => ⟨S_, .f32⟩
  | .hbm, ⟨74, _⟩ => ⟨S20000x512, .f32⟩
  | .hbm, ⟨75, _⟩ => ⟨S160000x1, .i32⟩
  | .hbm, ⟨76, _⟩ => ⟨S20000x512, .f32⟩
  | .hbm, ⟨77, _⟩ => ⟨S20000x512, .f32⟩
  | .hbm, ⟨78, _⟩ => ⟨S20000x512, .f32⟩
  | .hbm, ⟨79, _⟩ => ⟨S512x256, .bf16⟩
  | .hbm, ⟨80, _⟩ => ⟨S512x256, .bf16⟩
  | .hbm, ⟨81, _⟩ => ⟨S1x256, .f32⟩
  | .hbm, ⟨82, _⟩ => ⟨S20000x256, .f32⟩
  | .hbm, ⟨83, _⟩ => ⟨S_, .f32⟩
  | .hbm, ⟨84, _⟩ => ⟨S20000, .f32⟩
  | .hbm, ⟨85, _⟩ => ⟨S_, .f32⟩
  | .hbm, ⟨86, _⟩ => ⟨S32, .f32⟩
  | .hbm, ⟨87, _⟩ => ⟨S20000x1, .i32⟩
  | .hbm, ⟨88, _⟩ => ⟨S32, .f32⟩
  | .hbm, ⟨89, _⟩ => ⟨S_, .f32⟩
  | .hbm, ⟨90, _⟩ => ⟨S32x256, .f32⟩
  | .hbm, ⟨91, _⟩ => ⟨S20000x1, .i32⟩
  | .hbm, ⟨92, _⟩ => ⟨S32x256, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S32x1, .f32⟩
  | .hbm, ⟨97, _⟩ => ⟨S32x256, .f32⟩
  | .hbm, ⟨98, _⟩ => ⟨S32x256, .f32⟩
  | .local _ .vmem, ⟨0, _⟩ => ⟨S1000x27, .f32⟩
  | .local _ .vmem, ⟨1, _⟩ => ⟨S1000x27, .f32⟩
  | .local _ .vmem, ⟨2, _⟩ => ⟨S1000x27, .f32⟩
  | .local _ .vmem, ⟨3, _⟩ => ⟨S1000x27, .f32⟩
  | .local _ .vmem, ⟨4, _⟩ => ⟨S27x512, .bf16⟩
  | .local _ .vmem, ⟨5, _⟩ => ⟨S27x512, .bf16⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x256, .bf16⟩
  | .local _ .vmem, ⟨23, _⟩ => ⟨S512x256, .bf16⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | _, _ => ⟨S20000x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S27x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S_S20000x27 : S_.BroadcastsInDim S20000x27 (![] : Fin 0 → Fin S20000x27.rank)
  bcast_S20000x1_S20000x27_0_1 : S20000x1.BroadcastsInDim S20000x27 (![0, 1] : Fin 2 → Fin S20000x27.rank)
  bitsLt_bf16_f32 : FTy.bits .bf16 < FTy.bits .f32
  shapeCasts_S512_S1x512 : S512.ShapeCasts S1x512
  inb_S1000x27_S1000x27_0_0 : ∀ a, (![0, 0] : Fin 2 → Nat) a + S1000x27.size a ≤ S1000x27.size a
  h_S1000x27 : 0 < S1000x27.numel
  shapeCasts_S1000x27_S1000x27 : S1000x27.ShapeCasts S1000x27
  inb_S27x512_S27x512_0_0 : ∀ a, (![0, 0] : Fin 2 → Nat) a + S27x512.size a ≤ S27x512.size a
  h_S27x512 : 0 < S27x512.numel
  shapeCasts_S27x512_S27x512 : S27x512.ShapeCasts S27x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S32 : S_.BroadcastsInDim S32 (![] : Fin 0 → Fin S32.rank)
  bcast_S_S32x256 : S_.BroadcastsInDim S32x256 (![] : Fin 0 → Fin S32x256.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  scatter_S20000_S160000x1_S160000_n_0_0_1_wf : ScatterDims.WF S20000 S160000x1 S160000 [] [0] [0] 1
  gather_S20000x27_S160000x1_S160000x27_1_0_n_n_0_1_127_wf : GatherDims.WF S20000x27 S160000x1 S160000x27 [1] [0] [] [0] [] 1 ![1, 27]
  scatter_S20000x27_S160000x1_S160000x27_1_0_0_1_wf : ScatterDims.WF S20000x27 S160000x1 S160000x27 [1] [0] [0] 1
  dot_S1000x27_S27x512_S1000x512_1_0_0_1_n_n_wf : DotDims.WF S1000x27 S27x512 S1000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  scatter_S32_S20000x1_S20000_n_0_0_1_wf : ScatterDims.WF S32 S20000x1 S20000 [] [0] [0] 1
  scatter_S32x256_S20000x1_S20000x256_1_0_0_1_wf : ScatterDims.WF S32x256 S20000x1 S20000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x27.size a ≤ S20000x27.size a
  hwx0_0 : ∀ i : grid0.Coords, EltTy.bits .f32 = 32 ∨ (Rect.block (s := S20000x27) S1000x27.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x27.size a ≤ S20000x27.size a
  hwx0_1 : ∀ i : grid0.Coords, EltTy.bits .f32 = 32 ∨ (Rect.block (s := S20000x27) S1000x27.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S27x512.size a ≤ S27x512.size a
  hwx0_2 : ∀ i : grid0.Coords, EltTy.bits .bf16 = 32 ∨ (Rect.block (s := S27x512) S27x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S27x512.size a ≤ S27x512.size a
  hwx0_3 : ∀ i : grid0.Coords, EltTy.bits .bf16 = 32 ∨ (Rect.block (s := S27x512) S27x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S20000x512.size a
  hwx0_5 : ∀ i : grid0.Coords, EltTy.bits .f32 = 32 ∨ (Rect.block (s := S20000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S20000x512.size a
  hwx1_5 : ∀ i : grid1.Coords, EltTy.bits .f32 = 32 ∨ (Rect.block (s := S20000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .bf16 = 32 ∨ (Rect.block (s := S512x256) S512x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .bf16 = 32 ∨ (Rect.block (s := S512x256) S512x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S20000x256.size a
  hwx2_5 : ∀ i : grid2.Coords, EltTy.bits .f32 = 32 ∨ (Rect.block (s := S20000x256) S1000x256.size (cc2_transform_5 i) (hinb2_5 i)).WholeWords (EltTy.packing .f32)

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x27_S160000x1_S160000x27_1_0_n_n_0_1_127 : GatherDims S20000x27 S160000x1 S160000x27 where
  offsetDims := [1]
  collapsedSliceDims := [0]
  operandBatchingDims := []
  startIndicesBatchingDims := []
  startIndexMap := [0]
  indexVectorDim := 1
  sliceSizes := ![1, 27]
  wf := gather_S20000x27_S160000x1_S160000x27_1_0_n_n_0_1_127_wf
def scatter_S20000x27_S160000x1_S160000x27_1_0_0_1 : ScatterDims S20000x27 S160000x1 S160000x27 where
  updateWindowDims := [1]
  insertedWindowDims := [0]
  scatterDimsToOperandDims := [0]
  indexVectorDim := 1
  wf := scatter_S20000x27_S160000x1_S160000x27_1_0_0_1_wf
def dot_S1000x27_S27x512_S1000x512_1_0_0_1_n_n : DotDims S1000x27 S27x512 S1000x512 where
  lhsContracting := [1]
  rhsContracting := [0]
  lhsNonContracting := [0]
  rhsNonContracting := [1]
  lhsBatch := []
  rhsBatch := []
  wf := dot_S1000x27_S27x512_S1000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def scatter_S32_S20000x1_S20000_n_0_0_1 : ScatterDims S32 S20000x1 S20000 where
  updateWindowDims := []
  insertedWindowDims := [0]
  scatterDimsToOperandDims := [0]
  indexVectorDim := 1
  wf := scatter_S32_S20000x1_S20000_n_0_0_1_wf
def scatter_S32x256_S20000x1_S20000x256_1_0_0_1 : ScatterDims S32x256 S20000x1 S20000x256 where
  updateWindowDims := [1]
  insertedWindowDims := [0]
  scatterDimsToOperandDims := [0]
  indexVectorDim := 1
  wf := scatter_S32x256_S20000x1_S20000x256_1_0_0_1_wf

abbrev win0_0 : Pipeline.Window sig grid0 :=
  Pipeline.Window.ofSpec (Memref.whole main_arg0) S1000x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1000x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S27x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S27x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x27 : Shape := ⟨2, ![20000, 27]⟩
abbrev S160000 : Shape := ⟨1, ![160000]⟩
abbrev S20000 : Shape := ⟨1, ![20000]⟩
abbrev S27x512 : Shape := ⟨2, ![27, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩
abbrev S160000x1 : Shape := ⟨2, ![160000, 1]⟩
abbrev S20000x1 : Shape := ⟨2, ![20000, 1]⟩
abbrev S160000x27 : Shape := ⟨2, ![160000, 27]⟩
abbrev S20000x512 : Shape := ⟨2, ![20000, 512]⟩
abbrev S1x512 : Shape := ⟨2, ![1, 512]⟩
abbrev S160000x512 : Shape := ⟨2, ![160000, 512]⟩
abbrev S20000x256 : Shape := ⟨2, ![20000, 256]⟩
abbrev S1x256 : Shape := ⟨2, ![1, 256]⟩
abbrev S32 : Shape := ⟨1, ![32]⟩
abbrev S32x256 : Shape := ⟨2, ![32, 256]⟩
abbrev S32x1 : Shape := ⟨2, ![32, 1]⟩

abbrev nBuf : Space → Nat
  | .hbm => 111
  | .vmem => 0
  | .smem => 0
  | _ => 0

abbrev bufTy : (tb : Table) → Fin (tcTables nBuf tb) → BufTy
  | .hbm, ⟨0, _⟩ => ⟨S20000x27, .f32⟩
  | .hbm, ⟨1, _⟩ => ⟨S160000, .i32⟩
  | .hbm, ⟨2, _⟩ => ⟨S160000, .i32⟩
  | .hbm, ⟨3, _⟩ => ⟨S20000, .i32⟩
  | .hbm, ⟨4, _⟩ => ⟨S27x512, .f32⟩
  | .hbm, ⟨5, _⟩ => ⟨S27x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S512x256, .f32⟩
  | .hbm, ⟨12, _⟩ => ⟨S256, .f32⟩
  | .hbm, ⟨13, _⟩ => ⟨S_, .f32⟩
  | .hbm, ⟨14, _⟩ => ⟨S160000, .f32⟩
  | .hbm, ⟨15, _⟩ => ⟨S_, .f32⟩
  | .hbm, ⟨16, _⟩ => ⟨S20000, .f32⟩
  | .hbm, ⟨17, _⟩ => ⟨S160000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S20000x1, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x27, .f32⟩
  | .hbm, ⟨35, _⟩ => ⟨S_, .f32⟩
  | .hbm, ⟨36, _⟩ => ⟨S20000x27, .f32⟩
  | .hbm, ⟨37, _⟩ => ⟨S160000x1, .i32⟩
  | .hbm, ⟨38, _⟩ => ⟨S20000x27, .f32⟩
  | .hbm, ⟨39, _⟩ => ⟨S20000x27, .f32⟩
  | .hbm, ⟨40, _⟩ => ⟨S20000x27, .f32⟩
  | .hbm, ⟨41, _⟩ => ⟨S20000x512, .f32⟩
  | .hbm, ⟨42, _⟩ => ⟨S20000x512, .f32⟩
  | .hbm, ⟨43, _⟩ => ⟨S20000x512, .f32⟩
  | .hbm, ⟨44, _⟩ => ⟨S1x512, .f32⟩
  | .hbm, ⟨45, _⟩ => ⟨S20000x512, .f32⟩
  | .hbm, ⟨46, _⟩ => ⟨S20000x512, .f32⟩
  | .hbm, ⟨47, _⟩ => ⟨S_, .f32⟩
  | .hbm, ⟨48, _⟩ => ⟨S20000x512, .f32⟩
  | .hbm, ⟨49, _⟩ => ⟨S20000x512, .f32⟩
  | .hbm, ⟨50, _⟩ => ⟨S_, .i32⟩
  | .hbm, ⟨51, _⟩ => ⟨S160000, .i32⟩
  | .hbm, ⟨52, _⟩ => ⟨S160000, .i1⟩
  | .hbm, ⟨53, _⟩ => ⟨S_, .i32⟩
  | .hbm, ⟨54, _⟩ => ⟨S160000, .i32⟩
  | .hbm, ⟨55, _⟩ => ⟨S160000, .i32⟩
  | .hbm, ⟨56, _⟩ => ⟨S160000, .i32⟩
  | .hbm, ⟨57, _⟩ => ⟨S160000x1, .i32⟩
  | .hbm, ⟨58, _⟩ => ⟨S160000x512, .f32⟩
  | .hbm, ⟨59, _⟩ => ⟨S_, .f32⟩
  | .hbm, ⟨60, _⟩ => ⟨S20000x512, .f32⟩
  | .hbm, ⟨61, _⟩ => ⟨S160000x1, .i32⟩
  | .hbm, ⟨62, _⟩ => ⟨S20000x512, .f32⟩
  | .hbm, ⟨63, _⟩ => ⟨S20000x512, .f32⟩
  | .hbm, ⟨64, _⟩ => ⟨S20000x512, .f32⟩
  | .hbm, ⟨65, _⟩ => ⟨S20000x512, .f32⟩
  | .hbm, ⟨66, _⟩ => ⟨S20000x512, .f32⟩
  | .hbm, ⟨67, _⟩ => ⟨S20000x512, .f32⟩
  | .hbm, ⟨68, _⟩ => ⟨S1x512, .f32⟩
  | .hbm, ⟨69, _⟩ => ⟨S20000x512, .f32⟩
  | .hbm, ⟨70, _⟩ => ⟨S20000x512, .f32⟩
  | .hbm, ⟨71, _⟩ => ⟨S_, .f32⟩
  | .hbm, ⟨72, _⟩ => ⟨S20000x512, .f32⟩
  | .hbm, ⟨73, _⟩ => ⟨S20000x512, .f32⟩
  | .hbm, ⟨74, _⟩ => ⟨S_, .i32⟩
  | .hbm, ⟨75, _⟩ => ⟨S160000, .i32⟩
  | .hbm, ⟨76, _⟩ => ⟨S160000, .i1⟩
  | .hbm, ⟨77, _⟩ => ⟨S_, .i32⟩
  | .hbm, ⟨78, _⟩ => ⟨S160000, .i32⟩
  | .hbm, ⟨79, _⟩ => ⟨S160000, .i32⟩
  | .hbm, ⟨80, _⟩ => ⟨S160000, .i32⟩
  | .hbm, ⟨81, _⟩ => ⟨S160000x1, .i32⟩
  | .hbm, ⟨82, _⟩ => ⟨S160000x512, .f32⟩
  | .hbm, ⟨83, _⟩ => ⟨S_, .f32⟩
  | .hbm, ⟨84, _⟩ => ⟨S20000x512, .f32⟩
  | .hbm, ⟨85, _⟩ => ⟨S160000x1, .i32⟩
  | .hbm, ⟨86, _⟩ => ⟨S20000x512, .f32⟩
  | .hbm, ⟨87, _⟩ => ⟨S20000x512, .f32⟩
  | .hbm, ⟨88, _⟩ => ⟨S20000x512, .f32⟩
  | .hbm, ⟨89, _⟩ => ⟨S20000x256, .f32⟩
  | .hbm, ⟨90, _⟩ => ⟨S20000x256, .f32⟩
  | .hbm, ⟨91, _⟩ => ⟨S20000x256, .f32⟩
  | .hbm, ⟨92, _⟩ => ⟨S1x256, .f32⟩
  | .hbm, ⟨93, _⟩ => ⟨S20000x256, .f32⟩
  | .hbm, ⟨94, _⟩ => ⟨S20000x256, .f32⟩
  | .hbm, ⟨95, _⟩ => ⟨S_, .f32⟩
  | .hbm, ⟨96, _⟩ => ⟨S20000, .f32⟩
  | .hbm, ⟨97, _⟩ => ⟨S_, .f32⟩
  | .hbm, ⟨98, _⟩ => ⟨S32, .f32⟩
  | .hbm, ⟨99, _⟩ => ⟨S20000x1, .i32⟩
  | .hbm, ⟨100, _⟩ => ⟨S32, .f32⟩
  | .hbm, ⟨101, _⟩ => ⟨S_, .f32⟩
  | .hbm, ⟨102, _⟩ => ⟨S32x256, .f32⟩
  | .hbm, ⟨103, _⟩ => ⟨S20000x1, .i32⟩
  | .hbm, ⟨104, _⟩ => ⟨S32x256, .f32⟩
  | .hbm, ⟨105, _⟩ => ⟨S_, .f32⟩
  | .hbm, ⟨106, _⟩ => ⟨S32, .f32⟩
  | .hbm, ⟨107, _⟩ => ⟨S32, .f32⟩
  | .hbm, ⟨108, _⟩ => ⟨S32x1, .f32⟩
  | .hbm, ⟨109, _⟩ => ⟨S32x256, .f32⟩
  | .hbm, ⟨110, _⟩ => ⟨S32x256, .f32⟩
  | _, _ => ⟨S20000x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_cst : Ref sig .tc := ⟨.hbm, 71, rfl⟩
abbrev main_call1_v0 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S_S20000x27 : S_.BroadcastsInDim S20000x27 (![] : Fin 0 → Fin S20000x27.rank)
  bcast_S20000x1_S20000x27_0_1 : S20000x1.BroadcastsInDim S20000x27 (![0, 1] : Fin 2 → Fin S20000x27.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S32 : S_.BroadcastsInDim S32 (![] : Fin 0 → Fin S32.rank)
  bcast_S_S32x256 : S_.BroadcastsInDim S32x256 (![] : Fin 0 → Fin S32x256.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  scatter_S20000_S160000x1_S160000_n_0_0_1_wf : ScatterDims.WF S20000 S160000x1 S160000 [] [0] [0] 1
  gather_S20000x27_S160000x1_S160000x27_1_0_n_n_0_1_127_wf : GatherDims.WF S20000x27 S160000x1 S160000x27 [1] [0] [] [0] [] 1 ![1, 27]
  scatter_S20000x27_S160000x1_S160000x27_1_0_0_1_wf : ScatterDims.WF S20000x27 S160000x1 S160000x27 [1] [0] [0] 1
  dot_S20000x27_S27x512_S20000x512_1_0_0_1_n_n_wf : DotDims.WF S20000x27 S27x512 S20000x512 [1] [0] [0] [1] [] []
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []
  dot_S20000x512_S512x256_S20000x256_1_0_0_1_n_n_wf : DotDims.WF S20000x512 S512x256 S20000x256 [1] [0] [0] [1] [] []
  scatter_S32_S20000x1_S20000_n_0_0_1_wf : ScatterDims.WF S32 S20000x1 S20000 [] [0] [0] 1
  scatter_S32x256_S20000x1_S20000x256_1_0_0_1_wf : ScatterDims.WF S32x256 S20000x1 S20000x256 [1] [0] [0] 1

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x27_S160000x1_S160000x27_1_0_n_n_0_1_127 : GatherDims S20000x27 S160000x1 S160000x27 where
  offsetDims := [1]
  collapsedSliceDims := [0]
  operandBatchingDims := []
  startIndicesBatchingDims := []
  startIndexMap := [0]
  indexVectorDim := 1
  sliceSizes := ![1, 27]
  wf := gather_S20000x27_S160000x1_S160000x27_1_0_n_n_0_1_127_wf
def scatter_S20000x27_S160000x1_S160000x27_1_0_0_1 : ScatterDims S20000x27 S160000x1 S160000x27 where
  updateWindowDims := [1]
  insertedWindowDims := [0]
  scatterDimsToOperandDims := [0]
  indexVectorDim := 1
  wf := scatter_S20000x27_S160000x1_S160000x27_1_0_0_1_wf
def dot_S20000x27_S27x512_S20000x512_1_0_0_1_n_n : DotDims S20000x27 S27x512 S20000x512 where
  lhsContracting := [1]
  rhsContracting := [0]
  lhsNonContracting := [0]
  rhsNonContracting := [1]
  lhsBatch := []
  rhsBatch := []
  wf := dot_S20000x27_S27x512_S20000x512_1_0_0_1_n_n_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def scatter_S32_S20000x1_S20000_n_0_0_1 : ScatterDims S32 S20000x1 S20000 where
  updateWindowDims := []
  insertedWindowDims := [0]
  scatterDimsToOperandDims := [0]
  indexVectorDim := 1
  wf := scatter_S32_S20000x1_S20000_n_0_0_1_wf
def scatter_S32x256_S20000x1_S20000x256_1_0_0_1 : ScatterDims S32x256 S20000x1 S20000x256 where
  updateWindowDims := [1]
  insertedWindowDims := [0]
  scatterDimsToOperandDims := [0]
  indexVectorDim := 1
  wf := scatter_S32x256_S20000x1_S20000x256_1_0_0_1_wf

class Facts : Prop extends Facts₀ where

variable [Facts]
-- ==== Proof.KernelRun.lean ====
/-
  The idealized kernel program's run with every buffer read back: @main is three kernel regions among four stretches
  of host operations, and every weakly fair execution from the launch memory terminates with each TensorCore buffer
  that outlives the regions at the contents the last boundary names (`Gen.W7`: the host stretches folded over what the
  regions leave). The launch is the library's several-regions launch over the generated segments; only the reading of
  the final state differs from the frame: here every unscoped buffer is read, not the arguments alone.
-/
import proofs.«174093_j15590731285056_1_alg».proof.Proof.Gen.KernelIdeal.Frame

set_option maxRecDepth 16384

noncomputable section

namespace Cert.Bridge.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in the final memory every unscoped TensorCore buffer holds
    what the fold of the host stretches and the regions' write-backs gives it. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Bridge.KRun

end
-- ==== Proof.SpecK.lean ====
/-
  The host stages that both programs apply around the dense layers, each named once as a function on the extended
  reals, spelt with `KernelIdeal`'s printed dimension records.

  `invDeg dst` is the column of reciprocals 1 / max(deg, 1), where deg(n) counts the edges whose destination is n.
  `srcIdx src` is the column of source nodes, a negative index wrapped by the node count (jnp's indexing rule).
  `agg27 h src dst` and `agg512 h src dst` are the neighbour means: row n is the sum of the rows h[src e] over the edges e
  with dst e = n, times invDeg n. `pool h gid` is the per-graph mean of the node rows: the sum of the rows of each
  graph divided by max(count, 1).
-/
import proofs.«174093_j15590731285056_1_alg».proof.KernelIdeal
import proofs.«174093_j15590731285056_1_alg».proof.Proof.Gen.KernelIdeal
import Idealize.ShloMosaic.PureOps.Ideal

noncomputable section

namespace Cert.Bridge.K

open Idealize.ShloMosaic Cert.KernelIdeal Cert.KernelIdeal.Facts₀ Cert.KernelIdeal.Facts

/-- 1 / max(deg, 1) as a column, deg the number of edges into each node. -/
def invDeg (dst : IVec S160000 32) : FVec Ideal S20000x1 .f32 :=
  broadcastInDim S20000x1 ![0] bcast_S20000_S20000x1_0
    (Host.divf (broadcastInDim S20000 ![] bcast_S_S20000 (constant (F := Ideal) S_ .f32 0x3F800000#32))
      (maximumf
        (Host.scatterAdd scatter_S20000_S160000x1_S160000_n_0_0_1
          (broadcastInDim S20000 ![] bcast_S_S20000 (constant (F := Ideal) S_ .f32 0x00000000#32))
          (broadcastInDim S160000x1 ![0] bcast_S160000_S160000x1_0 dst)
          (broadcastInDim S160000 ![] bcast_S_S160000 (constant (F := Ideal) S_ .f32 0x3F800000#32)))
        (broadcastInDim S20000 ![] bcast_S_S20000 (constant (F := Ideal) S_ .f32 0x3F800000#32))))

/-- The source node of each edge as a column of start indices, a negative index wrapped by the node count. -/
def srcIdx (src : IVec S160000 32) : IVec S160000x1 32 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 20000#32))) src)

/-- The neighbour mean of 27 features: gathered source rows summed into their destination rows, times 1 / max(deg, 1). -/
def agg27 (h : FVec Ideal S20000x27 .f32) (src dst : IVec S160000 32) : FVec Ideal S20000x27 .f32 :=
  mulf
    (Host.scatterAdd scatter_S20000x27_S160000x1_S160000x27_1_0_0_1
      (broadcastInDim S20000x27 ![] bcast_S_S20000x27 (constant (F := Ideal) S_ .f32 0x00000000#32))
      (broadcastInDim S160000x1 ![0] bcast_S160000_S160000x1_0 dst)
      (Host.gather gather_S20000x27_S160000x1_S160000x27_1_0_n_n_0_1_127 h (srcIdx src)))
    (broadcastInDim S20000x27 ![0, 1] bcast_S20000x1_S20000x27_0_1 (invDeg dst))

/-- The neighbour mean of 512 features. -/
def agg512 (h : FVec Ideal S20000x512 .f32) (src dst : IVec S160000 32) : FVec Ideal S20000x512 .f32 :=
  mulf
    (Host.scatterAdd scatter_S20000x512_S160000x1_S160000x512_1_0_0_1
      (broadcastInDim S20000x512 ![] bcast_S_S20000x512 (constant (F := Ideal) S_ .f32 0x00000000#32))
      (broadcastInDim S160000x1 ![0] bcast_S160000_S160000x1_0 dst)
      (Host.gather gather_S20000x512_S160000x1_S160000x512_1_0_n_n_0_1_1512 h (srcIdx src)))
    (broadcastInDim S20000x512 ![0, 1] bcast_S20000x1_S20000x512_0_1 (invDeg dst))

/-- The per-graph mean of the node rows: each graph's rows summed, divided by max(count, 1). -/
def pool (h : FVec Ideal S20000x256 .f32) (gid : IVec S20000 32) : FVec Ideal S32x256 .f32 :=
  Host.divf
    (Host.scatterAdd scatter_S32x256_S20000x1_S20000x256_1_0_0_1
      (broadcastInDim S32x256 ![] bcast_S_S32x256 (constant (F := Ideal) S_ .f32 0x00000000#32))
      (broadcastInDim S20000x1 ![0] bcast_S20000_S20000x1_0 gid) h)
    (broadcastInDim S32x256 ![0, 1] bcast_S32x1_S32x256_0_1
      (broadcastInDim S32x1 ![0] bcast_S32_S32x1_0
        (maximumf
          (Host.scatterAdd scatter_S32_S20000x1_S20000_n_0_0_1
            (broadcastInDim S32 ![] bcast_S_S32 (constant (F := Ideal) S_ .f32 0x00000000#32))
            (broadcastInDim S20000x1 ![0] bcast_S20000_S20000x1_0 gid)
            (broadcastInDim S20000 ![] bcast_S_S20000 (constant (F := Ideal) S_ .f32 0x3F800000#32)))
          (broadcastInDim S32 ![] bcast_S_S32 (constant (F := Ideal) S_ .f32 0x3F800000#32)))))

end Cert.Bridge.K

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibSageLayer.lean ====
/-
  GENERAL LEMMAS: the arithmetic of one SAGE layer (mean aggregation + two linear maps + bias), index by index, on the
  extended reals; they import only the library and three general lemma files.

  A layer takes node features `h` ([M, K]), the neighbour means `hn` ([M, K]), two weight matrices ([K, N]) and a bias
  ([N]) to `h · W_self + hn · W_neigh + b`; the first two layers clamp the result at zero. Entry `(p, q)` depends on row
  `p` of `h` and of `hn`, on column `q` of the two weights and on `b q` only, so a tiling of the rows changes nothing.
  The neighbour mean is the edge sum divided by `max(deg, 1)`; multiplying by the reciprocal `1 / max(deg, 1)` instead is the
  same extended real, because the divisor is at least one (never zero), whatever the edge sum is — no finiteness is used.
-/
import Idealize.ShloMosaic.Lib.ValueIdx
import Idealize.ShloMosaic.Lib.ValueLayout
import Idealize.ShloMosaic.Lib.Pipeline.Value
import Idealize.ShloMosaic.PureOps.Ideal.Laws
import proofs.«174093_j15590731285056_1_alg».proof.Proof.LibMatmulNN
import proofs.«174093_j15590731285056_1_alg».proof.Proof.LibHostMatmulNN
import proofs.«174093_j15590731285056_1_alg».proof.Proof.LibHostKeepdims

noncomputable section

open scoped BigOperators

namespace Cert.Sage

open Idealize.ShloMosaic Idealize.ShloMosaic.ValueIdx

variable {M K N : ℕ}

/-- Entry `(p, q)` of `h · Ws + hn · Wn + b`. -/
def linAt (h hn : FVec Ideal ⟨2, ![M, K]⟩ .f32) (Ws Wn : FVec Ideal ⟨2, ![K, N]⟩ .f32) (b : Fin N → EReal)
    (p : Fin M) (q : Fin N) : EReal :=
  (∑ k : Fin K, h (ix2 p k) * Ws (ix2 k q)) + (∑ k : Fin K, hn (ix2 p k) * Wn (ix2 k q)) + b q

/-- The layer without the clamp: `h · Ws + hn · Wn + b`. -/
def lin (h hn : FVec Ideal ⟨2, ![M, K]⟩ .f32) (Ws Wn : FVec Ideal ⟨2, ![K, N]⟩ .f32) (b : Fin N → EReal) :
    FVec Ideal ⟨2, ![M, N]⟩ .f32 :=
  fun j => linAt h hn Ws Wn b (j 0) (j 1)

/-- The layer clamped at zero: `max (h · Ws + hn · Wn + b) 0`. -/
def linRelu (h hn : FVec Ideal ⟨2, ![M, K]⟩ .f32) (Ws Wn : FVec Ideal ⟨2, ![K, N]⟩ .f32) (b : Fin N → EReal) :
    FVec Ideal ⟨2, ![M, N]⟩ .f32 :=
  fun j => max (linAt h hn Ws Wn b (j 0) (j 1)) 0

/-- The host's two whole matrix products plus the bias broadcast along the rows are the layer. -/
theorem host_lin (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (h hn : FVec Ideal ⟨2, ![M, K]⟩ .f32) (Ws Wn : FVec Ideal ⟨2, ![K, N]⟩ .f32) (b : FVec Ideal ⟨1, ![N]⟩ .f32) :
    addf (addf (Host.dotGeneral d none h Ws) (Host.dotGeneral d none hn Wn))
        (broadcastInDim ⟨2, ![M, N]⟩ dims2 h2 (broadcastInDim ⟨2, ![1, N]⟩ dims1 h1 b))
      = lin h hn Ws Wn (fun q => b (ix1 q)) := by
  funext j
  obtain ⟨p, q, rfl⟩ : ∃ (p : Fin M) (q : Fin N), j = ix2 p q := ⟨j 0, j 1, eq_ix2 j⟩
  rw [addf_apply, addf_apply, Cert.LibHostMatmulNN.hostDot_nn_apply d hlc hrc hln hrn hlb hrb,
    Cert.LibHostMatmulNN.hostDot_nn_apply d hlc hrc hln hrn hlb hrb,
    broadcastInDim_1b_ab_apply dims2 h2 hd2, broadcastInDim_b_1b_apply dims1 h1 hd1]
  rfl

/-- The host's clamp against a broadcast zero is `max · 0` at every entry. -/
theorem host_relu {s : Shape} (dims0 : Fin 0 → Fin s.rank) (h0 : (⟨0, ![]⟩ : Shape).BroadcastsInDim s dims0)
    (X : FVec Ideal s .f32) :
    maximumf X (broadcastInDim s dims0 h0 (constant (F := Ideal) ⟨0, ![]⟩ .f32 0x00000000#32)) = fun j => max (X j) 0 := by
  funext j
  rw [maximumf_apply, broadcastInDim_scalar_apply dims0 h0, constant_apply, Ideal.ofBits_zero_f32]

/-- The layer with the clamp, as the host spells it. -/
theorem host_linRelu (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (dims0 : Fin 0 → Fin 2) (h0 : (⟨0, ![]⟩ : Shape).BroadcastsInDim ⟨2, ![M, N]⟩ dims0)
    (h hn : FVec Ideal ⟨2, ![M, K]⟩ .f32) (Ws Wn : FVec Ideal ⟨2, ![K, N]⟩ .f32) (b : FVec Ideal ⟨1, ![N]⟩ .f32) :
    maximumf (addf (addf (Host.dotGeneral d none h Ws) (Host.dotGeneral d none hn Wn))
        (broadcastInDim ⟨2, ![M, N]⟩ dims2 h2 (broadcastInDim ⟨2, ![1, N]⟩ dims1 h1 b)))
        (broadcastInDim ⟨2, ![M, N]⟩ dims0 h0 (constant (F := Ideal) ⟨0, ![]⟩ .f32 0x00000000#32))
      = linRelu h hn Ws Wn (fun q => b (ix1 q)) := by
  rw [host_relu, host_lin d hlc hrc hln hrn hlb hrb dims1 h1 hd1 dims2 h2 hd2]
  rfl

/-- The word of `1.0` is the real one. -/
theorem one_f32 : Ideal.ofBits .f32 0x3F800000#32 = (1 : EReal) := by
  simp [Ideal.ofBits, Ideal.ieee]
  rw [← EReal.coe_mul]
  norm_num

/-- Dividing by `max s 1` is multiplying by its reciprocal `1 / max s 1`: the divisor is never zero. -/
theorem mul_recip_eq_div (x s : EReal) : x * Ideal.div 1 (max s 1) = Ideal.div x (max s 1) := by
  have hd : max s 1 ≠ 0 := ne_of_gt (lt_of_lt_of_le zero_lt_one (le_max_right _ _))
  unfold Ideal.div
  rw [if_neg hd, if_neg hd, one_mul]

/-- The neighbour mean: the edge sums times the broadcast reciprocal of `max(deg, 1)` are the edge sums divided by
    the broadcast `max(deg, 1)`. -/
theorem mean_eq (dims0 : Fin 0 → Fin 1) (h0 : (⟨0, ![]⟩ : Shape).BroadcastsInDim ⟨1, ![M]⟩ dims0)
    (dimsA : Fin 1 → Fin 2) (hA : (⟨1, ![M]⟩ : Shape).BroadcastsInDim ⟨2, ![M, 1]⟩ dimsA) (hdA : dimsA 0 = 0)
    (dimsB : Fin 2 → Fin 2) (hB : (⟨2, ![M, 1]⟩ : Shape).BroadcastsInDim ⟨2, ![M, K]⟩ dimsB) (hdB : dimsB 0 = 0)
    (A : FVec Ideal ⟨2, ![M, K]⟩ .f32) (s : FVec Ideal ⟨1, ![M]⟩ .f32) :
    mulf A (broadcastInDim ⟨2, ![M, K]⟩ dimsB hB (broadcastInDim ⟨2, ![M, 1]⟩ dimsA hA
        (Host.divf (broadcastInDim ⟨1, ![M]⟩ dims0 h0 (constant (F := Ideal) ⟨0, ![]⟩ .f32 0x3F800000#32))
          (maximumf s (broadcastInDim ⟨1, ![M]⟩ dims0 h0 (constant (F := Ideal) ⟨0, ![]⟩ .f32 0x3F800000#32))))))
      = Host.divf A (broadcastInDim ⟨2, ![M, K]⟩ dimsB hB (broadcastInDim ⟨2, ![M, 1]⟩ dimsA hA
          (maximumf s (broadcastInDim ⟨1, ![M]⟩ dims0 h0 (constant (F := Ideal) ⟨0, ![]⟩ .f32 0x3F800000#32))))) := by
  funext j
  obtain ⟨p, q, rfl⟩ : ∃ (p : Fin M) (q : Fin K), j = ix2 p q := ⟨j 0, j 1, eq_ix2 j⟩
  show A (ix2 p q) * _ = Ideal.div (A (ix2 p q)) _
  rw [broadcastInDim_a1_ab_apply dimsB hB hdB, broadcastInDim_a_a1_apply dimsA hA hdA,
    broadcastInDim_a1_ab_apply dimsB hB hdB, broadcastInDim_a_a1_apply dimsA hA hdA]
  show A (ix2 p q) * Ideal.div _ _ = _
  rw [maximumf_apply, broadcastInDim_scalar_apply (t := ⟨1, ![M]⟩) dims0 h0, constant_apply, one_f32]
  exact mul_recip_eq_div _ _

end Cert.Sage

end
-- ==== Proof.Net.lean ====
/-
  The network as one function of its argument arrays, with the two neighbour means left as parameters: three SAGE
  layers, the first two clamped at zero, each layer  h · W_self + mean(h) · W_neigh + b  of the layer before.
-/
import proofs.«174093_j15590731285056_1_alg».proof.Proof.LibSageLayer

noncomputable section

namespace Cert.Bridge.Net

open Idealize.ShloMosaic Idealize.ShloMosaic.ValueIdx

abbrev X27 := FVec Ideal (⟨2, ![20000, 27]⟩ : Shape) .f32
abbrev X512 := FVec Ideal (⟨2, ![20000, 512]⟩ : Shape) .f32
abbrev X256 := FVec Ideal (⟨2, ![20000, 256]⟩ : Shape) .f32

/-- Layer 0: 27 features to 512, clamped at zero. -/
def h1 (a27 : X27 → X27) (x : X27) (Ws0 Wn0 : FVec Ideal (⟨2, ![27, 512]⟩ : Shape) .f32) (b0 : FVec Ideal (⟨1, ![512]⟩ : Shape) .f32) : X512 :=
  Cert.Sage.linRelu x (a27 x) Ws0 Wn0 (fun q => b0 (ix1 q))

/-- Layer 1 of a layer-0 result: 512 features to 512, clamped at zero. -/
def h2 (a512 : X512 → X512) (h : X512) (Ws1 Wn1 : FVec Ideal (⟨2, ![512, 512]⟩ : Shape) .f32) (b1 : FVec Ideal (⟨1, ![512]⟩ : Shape) .f32) : X512 :=
  Cert.Sage.linRelu h (a512 h) Ws1 Wn1 (fun q => b1 (ix1 q))

/-- Layer 2 of a layer-1 result: 512 features to 256, no clamp. -/
def h3 (a512 : X512 → X512) (h : X512) (Ws2 Wn2 : FVec Ideal (⟨2, ![512, 256]⟩ : Shape) .f32) (b2 : FVec Ideal (⟨1, ![256]⟩ : Shape) .f32) : X256 :=
  Cert.Sage.lin h (a512 h) Ws2 Wn2 (fun q => b2 (ix1 q))

end Cert.Bridge.Net

end
-- ==== Proof.Dense.lean ====
/-
  The three kernel bodies as arithmetic: each stores, for its block of 1000 rows, the SAGE layer of the block's rows —
  entry (p, q) is  Σ_k h(p, k) · Ws(k, q) + Σ_k agg(p, k) · Wn(k, q) + b(0, q),  clamped at zero in the first two
  layers. The roundings to sixteen bits in the body are the identity on the extended reals, each matrix product is
  accumulated from zero, and the bias row is spread over the 1000 rows.
-/
import proofs.«174093_j15590731285056_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«174093_j15590731285056_1_alg».proof.Proof.LibSageLayer

noncomputable section

open scoped BigOperators

namespace Cert.Bridge.Dense

open Idealize.ShloMosaic Idealize.ShloMosaic.ValueIdx Cert.KernelIdeal Cert.KernelIdeal.Gen

/-- Layer 0's body on a block: 27 input features, 512 outputs, clamped at zero. -/
theorem pay0_eq (x0 x1 : Vec Ideal S1000x27 .f32) (x2 x3 : Vec Ideal S27x512 .bf16) (x4 : Vec Ideal S1x512 .f32) :
    k0_pay1 (F := Ideal) x0 x1 x2 x3 x4
      = Cert.Sage.linRelu (M := 1000) (K := 27) (N := 512) x0 x1 x2 x3 (fun q => x4 (ix2 (0 : Fin 1) q)) := by
  funext j
  obtain ⟨p, q, rfl⟩ : ∃ (p : Fin 1000) (q : Fin 512), j = ix2 p q := ⟨j 0, j 1, eq_ix2 j⟩
  unfold k0_pay1
  simp only [shapeCast_self]
  rw [maximumf_apply, addf_apply, addf_apply, broadcast_apply,
    Cert.LibMatmulNN.matmul_nn_apply _ rfl rfl rfl rfl rfl rfl, Cert.LibMatmulNN.matmul_nn_apply _ rfl rfl rfl rfl rfl rfl,
    broadcastTo_1b_ab_apply]
  simp only [truncf_apply, Ideal.ofBits_def, Ideal.ofBits_zero_f32]
  rfl

/-- Layer 1's body on a block: 512 input features, 512 outputs, clamped at zero. -/
theorem pay1_eq (x0 x1 : Vec Ideal S1000x512 .f32) (x2 x3 : Vec Ideal S512x512 .bf16) (x4 : Vec Ideal S1x512 .f32) :
    k1_pay1 (F := Ideal) x0 x1 x2 x3 x4
      = Cert.Sage.linRelu (M := 1000) (K := 512) (N := 512) x0 x1 x2 x3 (fun q => x4 (ix2 (0 : Fin 1) q)) := by
  funext j
  obtain ⟨p, q, rfl⟩ : ∃ (p : Fin 1000) (q : Fin 512), j = ix2 p q := ⟨j 0, j 1, eq_ix2 j⟩
  unfold k1_pay1
  simp only [shapeCast_self]
  rw [maximumf_apply, addf_apply, addf_apply, broadcast_apply,
    Cert.LibMatmulNN.matmul_nn_apply _ rfl rfl rfl rfl rfl rfl, Cert.LibMatmulNN.matmul_nn_apply _ rfl rfl rfl rfl rfl rfl,
    broadcastTo_1b_ab_apply]
  simp only [truncf_apply, Ideal.ofBits_def, Ideal.ofBits_zero_f32]
  rfl

/-- Layer 2's body on a block: 512 input features, 256 outputs, no clamp. -/
theorem pay2_eq (x0 x1 : Vec Ideal S1000x512 .f32) (x2 x3 : Vec Ideal S512x256 .bf16) (x4 : Vec Ideal S1x256 .f32) :
    k2_pay1 (F := Ideal) x0 x1 x2 x3 x4
      = Cert.Sage.lin (M := 1000) (K := 512) (N := 256) x0 x1 x2 x3 (fun q => x4 (ix2 (0 : Fin 1) q)) := by
  funext j
  obtain ⟨p, q, rfl⟩ : ∃ (p : Fin 1000) (q : Fin 256), j = ix2 p q := ⟨j 0, j 1, eq_ix2 j⟩
  unfold k2_pay1
  simp only [shapeCast_self]
  rw [addf_apply, addf_apply,
    Cert.LibMatmulNN.matmul_nn_apply _ rfl rfl rfl rfl rfl rfl, Cert.LibMatmulNN.matmul_nn_apply _ rfl rfl rfl rfl rfl rfl,
    broadcastTo_1b_ab_apply]
  simp only [truncf_apply]
  rfl

/-- A block's rows are rows of the whole arrays: if row `p` of the two row blocks is row `r` of the two arrays, the layer
    of the blocks at `(p, q)` is the layer of the arrays at `(r, q)` (the weights and the bias are not tiled). -/
theorem linAt_rows {M M' K N : ℕ} (H A : FVec Ideal ⟨2, ![M, K]⟩ .f32) (x0 x1 : FVec Ideal ⟨2, ![M', K]⟩ .f32)
    (Ws Wn : FVec Ideal ⟨2, ![K, N]⟩ .f32) (b : Fin N → EReal) (p : Fin M') (r : Fin M) (q : Fin N)
    (h0 : ∀ k, x0 (ix2 p k) = H (ix2 r k)) (h1 : ∀ k, x1 (ix2 p k) = A (ix2 r k)) :
    Cert.Sage.linAt x0 x1 Ws Wn b p q = Cert.Sage.linAt H A Ws Wn b r q := by
  unfold Cert.Sage.linAt
  simp only [h0, h1]

end Cert.Bridge.Dense

end
-- ==== Proof.Region2.lean ====
/-
  Region 2 (layer 2) as one function of the arrays it finds: the grid's 20 points each take 1000 rows of the node
  features and of the neighbour means, the whole weight matrices and the bias row, and write the layer of those rows
  to the same 1000 rows of the result. The row blocks tile the 20000 rows, so after the region the result array is
  the layer of the whole arrays, whatever the arrays held when the region was entered.
-/
import proofs.«174093_j15590731285056_1_alg».proof.Proof.Gen.KernelIdeal.Frame
import proofs.«174093_j15590731285056_1_alg».proof.Proof.Dense
import Idealize.ShloMosaic.Lib.Pipeline.Value

set_option maxRecDepth 16384

noncomputable section

namespace Cert.Bridge.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : FVec Ideal (⟨2, ![20000, 256]⟩ : Shape) .f32 :=
  Cert.Sage.lin (M := 20000) (K := 512) (N := 256) (V c main_v40) (V c main_v52) (V c main_v53) (V c main_v54)
    (fun q => (V c main_v55 : (⟨2, ![1, 256]⟩ : Shape).Idx → EReal) (ix2 (0 : Fin 1) q))

/-- The printed index maps over the grid: point `t` takes row block `t` of the two row-tiled inputs and of the output,
    and block (0, 0) — the whole array — of the weights and of the bias. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of window 0's block at point `t` is row `1000 t + p` of its array. -/
theorem blk0_row (c : Dev nD) (t : Fin cfg2.N) (p : Fin 1000) (x : Fin 512) (r : Fin 20000) (hr : r.val = t.val * 1000 + p.val) :
    (iblk2 V c 0 t : S1000x512.Idx → EReal) (ix2 p x) = (V c main_v40 : S20000x512.Idx → EReal) (ix2 r x) := by
  obtain ⟨e00, e01, e10, e11, e20, e21, e30, e31, e40, e41, e50, e51⟩ := idx_facts t
  unfold iblk2
  rw [View.read_apply]
  show V c main_v40 _ = V c main_v40 (ix2 r x)
  congr 1
  funext a
  apply Fin.ext
  match a with
  | ⟨0, _⟩ => show win2_0.index t (0 : Fin 2) * 1000 + 1 * p.val = r.val; rw [e00, hr]; omega
  | ⟨1, _⟩ => show win2_0.index t (1 : Fin 2) * 512 + 1 * x.val = x.val; rw [e01]; omega

/-- Row `p` of window 1's block at point `t` is row `1000 t + p` of its array. -/
theorem blk1_row (c : Dev nD) (t : Fin cfg2.N) (p : Fin 1000) (x : Fin 512) (r : Fin 20000) (hr : r.val = t.val * 1000 + p.val) :
    (iblk2 V c 1 t : S1000x512.Idx → EReal) (ix2 p x) = (V c main_v52 : S20000x512.Idx → EReal) (ix2 r x) := by
  obtain ⟨e00, e01, e10, e11, e20, e21, e30, e31, e40, e41, e50, e51⟩ := idx_facts t
  unfold iblk2
  rw [View.read_apply]
  show V c main_v52 _ = V c main_v52 (ix2 r x)
  congr 1
  funext a
  apply Fin.ext
  match a with
  | ⟨0, _⟩ => show win2_1.index t (0 : Fin 2) * 1000 + 1 * p.val = r.val; rw [e10, hr]; omega
  | ⟨1, _⟩ => show win2_1.index t (1 : Fin 2) * 512 + 1 * x.val = x.val; rw [e11]; omega

/-- Window 2's one block is the whole array. -/
theorem blk2 (c : Dev nD) (t : Fin cfg2.N) :
    (iblk2 V c 2 t : S512x256.Idx → EReal) = (V c main_v53 : S512x256.Idx → EReal) := by
  obtain ⟨e00, e01, e10, e11, e20, e21, e30, e31, e40, e41, e50, e51⟩ := idx_facts t
  funext y
  unfold iblk2
  rw [View.read_apply]
  show V c main_v53 _ = V c main_v53 y
  congr 1
  funext a
  apply Fin.ext
  match a with
  | ⟨0, _⟩ => show win2_2.index t (0 : Fin 2) * 512 + 1 * (y 0).val = (y 0).val; rw [e20]; omega
  | ⟨1, _⟩ => show win2_2.index t (1 : Fin 2) * 256 + 1 * (y 1).val = (y 1).val; rw [e21]; omega

/-- Window 3's one block is the whole array. -/
theorem blk3 (c : Dev nD) (t : Fin cfg2.N) :
    (iblk2 V c 3 t : S512x256.Idx → EReal) = (V c main_v54 : S512x256.Idx → EReal) := by
  obtain ⟨e00, e01, e10, e11, e20, e21, e30, e31, e40, e41, e50, e51⟩ := idx_facts t
  funext y
  unfold iblk2
  rw [View.read_apply]
  show V c main_v54 _ = V c main_v54 y
  congr 1
  funext a
  apply Fin.ext
  match a with
  | ⟨0, _⟩ => show win2_3.index t (0 : Fin 2) * 512 + 1 * (y 0).val = (y 0).val; rw [e30]; omega
  | ⟨1, _⟩ => show win2_3.index t (1 : Fin 2) * 256 + 1 * (y 1).val = (y 1).val; rw [e31]; omega

/-- Window 4's one block is the whole array. -/
theorem blk4 (c : Dev nD) (t : Fin cfg2.N) :
    (iblk2 V c 4 t : S1x256.Idx → EReal) = (V c main_v55 : S1x256.Idx → EReal) := by
  obtain ⟨e00, e01, e10, e11, e20, e21, e30, e31, e40, e41, e50, e51⟩ := idx_facts t
  funext y
  unfold iblk2
  rw [View.read_apply]
  show V c main_v55 _ = V c main_v55 y
  congr 1
  funext a
  apply Fin.ext
  match a with
  | ⟨0, _⟩ => show win2_4.index t (0 : Fin 2) * 1 + 1 * (y 0).val = (y 0).val; rw [e40]; omega
  | ⟨1, _⟩ => show win2_4.index t (1 : Fin 2) * 256 + 1 * (y 1).val = (y 1).val; rw [e41]; omega

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x512) hz, View.ld_unit_zero (S := S512x256) hz, View.ld_unit_zero (S := S1x256) hz]
  rw [Dense.pay2_eq]
  obtain ⟨e00, e01, e10, e11, e20, e21, e30, e31, e40, e41, e50, e51⟩ := idx_facts t
  have hN : cfg2.N = 20 := N_2
  funext j
  have hj0 : (j 0).val < 1000 := (j 0).isLt
  have hj1 : (j 1).val < 256 := (j 1).isLt
  have hemb : ((cfg2.win 5).blk t).view.emb j
      = ix2 (⟨t.val * 1000 + (j 0).val, by have := t.isLt; omega⟩ : Fin 20000) (⟨(j 1).val, hj1⟩ : Fin 256) := by
    funext a
    apply Fin.ext
    match a with
    | ⟨0, _⟩ => show win2_5.index t (0 : Fin 2) * 1000 + 1 * (j 0).val = t.val * 1000 + (j 0).val; rw [e50]; omega
    | ⟨1, _⟩ => show win2_5.index t (1 : Fin 2) * 256 + 1 * (j 1).val = (j 1).val; rw [e51]; omega
  show Cert.Sage.lin (M := 1000) (K := 512) (N := 256) (iblk2 V c 0 t) (iblk2 V c 1 t) (iblk2 V c 2 t) (iblk2 V c 3 t)
      (fun q => (iblk2 V c 4 t : S1x256.Idx → EReal) (ix2 (0 : Fin 1) q)) j = G V c (((cfg2.win 5).blk t).view.emb j)
  rw [hemb, blk2 V c t, blk3 V c t, blk4 V c t]
  unfold G Cert.Sage.lin
  show Cert.Sage.linAt _ _ _ _ _ _ _ = Cert.Sage.linAt _ _ _ _ _ _ _
  exact Dense.linAt_rows _ _ _ _ _ _ _ (⟨(j 0).val, hj0⟩ : Fin 1000) _ (⟨(j 1).val, hj1⟩ : Fin 256)
    (fun x => blk0_row V c t _ x _ rfl) (fun x => blk1_row V c t _ x _ rfl)

/-- An index of the result array is in point `t`'s block iff each coordinate is in the block's range on its axis. -/
theorem mem_blk (t : Fin cfg2.N) (i : S20000x256.Idx) :
    i ∈ ((cfg2.win 5).blk t).view.set ↔ ∀ a : Fin 2, win2_5.index t a * S1000x256.size a ≤ (i a).val ∧ (i a).val < win2_5.index t a * S1000x256.size a + S1000x256.size a := by
  show i ∈ ((View.whole main_v56).slice (win2_5.rect t)).set ↔ _
  rw [View.set_slice_whole, Rect.mem_set_unit]
  exact Iff.rfl

/-- The row blocks tile the result: row `r` lies in the block of point `r / 1000`. -/
theorem cover (i : S20000x256.Idx) :
    ∃ t : Fin cfg2.N, (cfg2.win 5).flush t = true ∧ i ∈ ((cfg2.win 5).blk t).view.set := by
  have hN : cfg2.N = 20 := N_2
  have hi0 : (i 0).val < 20000 := (i 0).isLt
  have hi1 : (i 1).val < 256 := (i 1).isLt
  let t : Fin cfg2.N := ⟨(i 0).val / 1000, by omega⟩
  obtain ⟨e00, e01, e10, e11, e20, e21, e30, e31, e40, e41, e50, e51⟩ := idx_facts t
  have ht : t.val = (i 0).val / 1000 := rfl
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; rw [e50, ht]; omega
  | ⟨1, _⟩ => show win2_5.index t (1 : Fin 2) * 256 ≤ (i 1).val ∧ (i 1).val < win2_5.index t (1 : Fin 2) * 256 + 256; rw [e51]; omega

/-- After the region the result array is the layer of the whole arrays as the region found them. -/
theorem final (c : Dev nD) : (dat2 V c).arrAt 5 cfg2.N = G V c :=
  (dat2 V c).arrAt_eq_of_cover 5 (G V c) (fun t _ => flushed_eq V c t) cover

end Cert.Bridge.Region2

end
-- ==== Proof.Region1.lean ====
/-
  Region 1 (layer 1) as one function of the arrays it finds: the grid's 20 points each take 1000 rows of the node
  features and of the neighbour means, the whole weight matrices and the bias row, and write the layer of those rows
  to the same 1000 rows of the result. The row blocks tile the 20000 rows, so after the region the result array is
  the layer of the whole arrays, whatever the arrays held when the region was entered.
-/
import proofs.«174093_j15590731285056_1_alg».proof.Proof.Gen.KernelIdeal.Frame
import proofs.«174093_j15590731285056_1_alg».proof.Proof.Dense
import Idealize.ShloMosaic.Lib.Pipeline.Value

set_option maxRecDepth 16384

noncomputable section

namespace Cert.Bridge.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : FVec Ideal (⟨2, ![20000, 512]⟩ : Shape) .f32 :=
  Cert.Sage.linRelu (M := 20000) (K := 512) (N := 512) (V c main_v24) (V c main_v36) (V c main_v37) (V c main_v38)
    (fun q => (V c main_v39 : (⟨2, ![1, 512]⟩ : Shape).Idx → EReal) (ix2 (0 : Fin 1) q))

/-- The printed index maps over the grid: point `t` takes row block `t` of the two row-tiled inputs and of the output,
    and block (0, 0) — the whole array — of the weights and of the bias. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of window 0's block at point `t` is row `1000 t + p` of its array. -/
theorem blk0_row (c : Dev nD) (t : Fin cfg1.N) (p : Fin 1000) (x : Fin 512) (r : Fin 20000) (hr : r.val = t.val * 1000 + p.val) :
    (iblk1 V c 0 t : S1000x512.Idx → EReal) (ix2 p x) = (V c main_v24 : S20000x512.Idx → EReal) (ix2 r x) := by
  obtain ⟨e00, e01, e10, e11, e20, e21, e30, e31, e40, e41, e50, e51⟩ := idx_facts t
  unfold iblk1
  rw [View.read_apply]
  show V c main_v24 _ = V c main_v24 (ix2 r x)
  congr 1
  funext a
  apply Fin.ext
  match a with
  | ⟨0, _⟩ => show win1_0.index t (0 : Fin 2) * 1000 + 1 * p.val = r.val; rw [e00, hr]; omega
  | ⟨1, _⟩ => show win1_0.index t (1 : Fin 2) * 512 + 1 * x.val = x.val; rw [e01]; omega

/-- Row `p` of window 1's block at point `t` is row `1000 t + p` of its array. -/
theorem blk1_row (c : Dev nD) (t : Fin cfg1.N) (p : Fin 1000) (x : Fin 512) (r : Fin 20000) (hr : r.val = t.val * 1000 + p.val) :
    (iblk1 V c 1 t : S1000x512.Idx → EReal) (ix2 p x) = (V c main_v36 : S20000x512.Idx → EReal) (ix2 r x) := by
  obtain ⟨e00, e01, e10, e11, e20, e21, e30, e31, e40, e41, e50, e51⟩ := idx_facts t
  unfold iblk1
  rw [View.read_apply]
  show V c main_v36 _ = V c main_v36 (ix2 r x)
  congr 1
  funext a
  apply Fin.ext
  match a with
  | ⟨0, _⟩ => show win1_1.index t (0 : Fin 2) * 1000 + 1 * p.val = r.val; rw [e10, hr]; omega
  | ⟨1, _⟩ => show win1_1.index t (1 : Fin 2) * 512 + 1 * x.val = x.val; rw [e11]; omega

/-- Window 2's one block is the whole array. -/
theorem blk2 (c : Dev nD) (t : Fin cfg1.N) :
    (iblk1 V c 2 t : S512x512.Idx → EReal) = (V c main_v37 : S512x512.Idx → EReal) := by
  obtain ⟨e00, e01, e10, e11, e20, e21, e30, e31, e40, e41, e50, e51⟩ := idx_facts t
  funext y
  unfold iblk1
  rw [View.read_apply]
  show V c main_v37 _ = V c main_v37 y
  congr 1
  funext a
  apply Fin.ext
  match a with
  | ⟨0, _⟩ => show win1_2.index t (0 : Fin 2) * 512 + 1 * (y 0).val = (y 0).val; rw [e20]; omega
  | ⟨1, _⟩ => show win1_2.index t (1 : Fin 2) * 512 + 1 * (y 1).val = (y 1).val; rw [e21]; omega

/-- Window 3's one block is the whole array. -/
theorem blk3 (c : Dev nD) (t : Fin cfg1.N) :
    (iblk1 V c 3 t : S512x512.Idx → EReal) = (V c main_v38 : S512x512.Idx → EReal) := by
  obtain ⟨e00, e01, e10, e11, e20, e21, e30, e31, e40, e41, e50, e51⟩ := idx_facts t
  funext y
  unfold iblk1
  rw [View.read_apply]
  show V c main_v38 _ = V c main_v38 y
  congr 1
  funext a
  apply Fin.ext
  match a with
  | ⟨0, _⟩ => show win1_3.index t (0 : Fin 2) * 512 + 1 * (y 0).val = (y 0).val; rw [e30]; omega
  | ⟨1, _⟩ => show win1_3.index t (1 : Fin 2) * 512 + 1 * (y 1).val = (y 1).val; rw [e31]; omega

/-- Window 4's one block is the whole array. -/
theorem blk4 (c : Dev nD) (t : Fin cfg1.N) :
    (iblk1 V c 4 t : S1x512.Idx → EReal) = (V c main_v39 : S1x512.Idx → EReal) := by
  obtain ⟨e00, e01, e10, e11, e20, e21, e30, e31, e40, e41, e50, e51⟩ := idx_facts t
  funext y
  unfold iblk1
  rw [View.read_apply]
  show V c main_v39 _ = V c main_v39 y
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 512 + 1 * (y 1).val = (y 1).val; rw [e41]; omega

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x512) hz, View.ld_unit_zero (S := S1x512) hz]
  rw [Dense.pay1_eq]
  obtain ⟨e00, e01, e10, e11, e20, e21, e30, e31, e40, e41, e50, e51⟩ := idx_facts t
  have hN : cfg1.N = 20 := N_1
  funext j
  have hj0 : (j 0).val < 1000 := (j 0).isLt
  have hj1 : (j 1).val < 512 := (j 1).isLt
  have hemb : ((cfg1.win 5).blk t).view.emb j
      = ix2 (⟨t.val * 1000 + (j 0).val, by have := t.isLt; omega⟩ : Fin 20000) (⟨(j 1).val, hj1⟩ : Fin 512) := by
    funext a
    apply Fin.ext
    match a with
    | ⟨0, _⟩ => show win1_5.index t (0 : Fin 2) * 1000 + 1 * (j 0).val = t.val * 1000 + (j 0).val; rw [e50]; omega
    | ⟨1, _⟩ => show win1_5.index t (1 : Fin 2) * 512 + 1 * (j 1).val = (j 1).val; rw [e51]; omega
  show Cert.Sage.linRelu (M := 1000) (K := 512) (N := 512) (iblk1 V c 0 t) (iblk1 V c 1 t) (iblk1 V c 2 t) (iblk1 V c 3 t)
      (fun q => (iblk1 V c 4 t : S1x512.Idx → EReal) (ix2 (0 : Fin 1) q)) j = G V c (((cfg1.win 5).blk t).view.emb j)
  rw [hemb, blk2 V c t, blk3 V c t, blk4 V c t]
  unfold G Cert.Sage.linRelu
  refine congrArg (max · 0) ?_
  exact Dense.linAt_rows _ _ _ _ _ _ _ (⟨(j 0).val, hj0⟩ : Fin 1000) _ (⟨(j 1).val, hj1⟩ : Fin 512)
    (fun x => blk0_row V c t _ x _ rfl) (fun x => blk1_row V c t _ x _ rfl)

/-- An index of the result array is in point `t`'s block iff each coordinate is in the block's range on its axis. -/
theorem mem_blk (t : Fin cfg1.N) (i : S20000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v40).slice (win1_5.rect t)).set ↔ _
  rw [View.set_slice_whole, Rect.mem_set_unit]
  exact Iff.rfl

/-- The row blocks tile the result: row `r` lies in the block of point `r / 1000`. -/
theorem cover (i : S20000x512.Idx) :
    ∃ t : Fin cfg1.N, (cfg1.win 5).flush t = true ∧ i ∈ ((cfg1.win 5).blk t).view.set := by
  have hN : cfg1.N = 20 := N_1
  have hi0 : (i 0).val < 20000 := (i 0).isLt
  have hi1 : (i 1).val < 512 := (i 1).isLt
  let t : Fin cfg1.N := ⟨(i 0).val / 1000, by omega⟩
  obtain ⟨e00, e01, e10, e11, e20, e21, e30, e31, e40, e41, e50, e51⟩ := idx_facts t
  have ht : t.val = (i 0).val / 1000 := rfl
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; rw [e50, ht]; omega
  | ⟨1, _⟩ => show win1_5.index t (1 : Fin 2) * 512 ≤ (i 1).val ∧ (i 1).val < win1_5.index t (1 : Fin 2) * 512 + 512; rw [e51]; omega

/-- After the region the result array is the layer of the whole arrays as the region found them. -/
theorem final (c : Dev nD) : (dat1 V c).arrAt 5 cfg1.N = G V c :=
  (dat1 V c).arrAt_eq_of_cover 5 (G V c) (fun t _ => flushed_eq V c t) cover

end Cert.Bridge.Region1

end
-- ==== Proof.Region0.lean ====
/-
  Region 0 (layer 0) as one function of the arrays it finds: the grid's 20 points each take 1000 rows of the node
  features and of the neighbour means, the whole weight matrices and the bias row, and write the layer of those rows
  to the same 1000 rows of the result. The row blocks tile the 20000 rows, so after the region the result array is
  the layer of the whole arrays, whatever the arrays held when the region was entered.
-/
import proofs.«174093_j15590731285056_1_alg».proof.Proof.Gen.KernelIdeal.Frame
import proofs.«174093_j15590731285056_1_alg».proof.Proof.Dense
import Idealize.ShloMosaic.Lib.Pipeline.Value

set_option maxRecDepth 16384

noncomputable section

namespace Cert.Bridge.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : FVec Ideal (⟨2, ![20000, 512]⟩ : Shape) .f32 :=
  Cert.Sage.linRelu (M := 20000) (K := 27) (N := 512) (V c main_arg0) (V c main_v20) (V c main_v21) (V c main_v22)
    (fun q => (V c main_v23 : (⟨2, ![1, 512]⟩ : Shape).Idx → EReal) (ix2 (0 : Fin 1) q))

/-- The printed index maps over the grid: point `t` takes row block `t` of the two row-tiled inputs and of the output,
    and block (0, 0) — the whole array — of the weights and of the bias. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of window 0's block at point `t` is row `1000 t + p` of its array. -/
theorem blk0_row (c : Dev nD) (t : Fin cfg0.N) (p : Fin 1000) (x : Fin 27) (r : Fin 20000) (hr : r.val = t.val * 1000 + p.val) :
    (iblk0 V c 0 t : S1000x27.Idx → EReal) (ix2 p x) = (V c main_arg0 : S20000x27.Idx → EReal) (ix2 r x) := by
  obtain ⟨e00, e01, e10, e11, e20, e21, e30, e31, e40, e41, e50, e51⟩ := idx_facts t
  unfold iblk0
  rw [View.read_apply]
  show V c main_arg0 _ = V c main_arg0 (ix2 r x)
  congr 1
  funext a
  apply Fin.ext
  match a with
  | ⟨0, _⟩ => show win0_0.index t (0 : Fin 2) * 1000 + 1 * p.val = r.val; rw [e00, hr]; omega
  | ⟨1, _⟩ => show win0_0.index t (1 : Fin 2) * 27 + 1 * x.val = x.val; rw [e01]; omega

/-- Row `p` of window 1's block at point `t` is row `1000 t + p` of its array. -/
theorem blk1_row (c : Dev nD) (t : Fin cfg0.N) (p : Fin 1000) (x : Fin 27) (r : Fin 20000) (hr : r.val = t.val * 1000 + p.val) :
    (iblk0 V c 1 t : S1000x27.Idx → EReal) (ix2 p x) = (V c main_v20 : S20000x27.Idx → EReal) (ix2 r x) := by
  obtain ⟨e00, e01, e10, e11, e20, e21, e30, e31, e40, e41, e50, e51⟩ := idx_facts t
  unfold iblk0
  rw [View.read_apply]
  show V c main_v20 _ = V c main_v20 (ix2 r x)
  congr 1
  funext a
  apply Fin.ext
  match a with
  | ⟨0, _⟩ => show win0_1.index t (0 : Fin 2) * 1000 + 1 * p.val = r.val; rw [e10, hr]; omega
  | ⟨1, _⟩ => show win0_1.index t (1 : Fin 2) * 27 + 1 * x.val = x.val; rw [e11]; omega

/-- Window 2's one block is the whole array. -/
theorem blk2 (c : Dev nD) (t : Fin cfg0.N) :
    (iblk0 V c 2 t : S27x512.Idx → EReal) = (V c main_v21 : S27x512.Idx → EReal) := by
  obtain ⟨e00, e01, e10, e11, e20, e21, e30, e31, e40, e41, e50, e51⟩ := idx_facts t
  funext y
  unfold iblk0
  rw [View.read_apply]
  show V c main_v21 _ = V c main_v21 y
  congr 1
  funext a
  apply Fin.ext
  match a with
  | ⟨0, _⟩ => show win0_2.index t (0 : Fin 2) * 27 + 1 * (y 0).val = (y 0).val; rw [e20]; omega
  | ⟨1, _⟩ => show win0_2.index t (1 : Fin 2) * 512 + 1 * (y 1).val = (y 1).val; rw [e21]; omega

/-- Window 3's one block is the whole array. -/
theorem blk3 (c : Dev nD) (t : Fin cfg0.N) :
    (iblk0 V c 3 t : S27x512.Idx → EReal) = (V c main_v22 : S27x512.Idx → EReal) := by
  obtain ⟨e00, e01, e10, e11, e20, e21, e30, e31, e40, e41, e50, e51⟩ := idx_facts t
  funext y
  unfold iblk0
  rw [View.read_apply]
  show V c main_v22 _ = V c main_v22 y
  congr 1
  funext a
  apply Fin.ext
  match a with
  | ⟨0, _⟩ => show win0_3.index t (0 : Fin 2) * 27 + 1 * (y 0).val = (y 0).val; rw [e30]; omega
  | ⟨1, _⟩ => show win0_3.index t (1 : Fin 2) * 512 + 1 * (y 1).val = (y 1).val; rw [e31]; omega

/-- Window 4's one block is the whole array. -/
theorem blk4 (c : Dev nD) (t : Fin cfg0.N) :
    (iblk0 V c 4 t : S1x512.Idx → EReal) = (V c main_v23 : S1x512.Idx → EReal) := by
  obtain ⟨e00, e01, e10, e11, e20, e21, e30, e31, e40, e41, e50, e51⟩ := idx_facts t
  funext y
  unfold iblk0
  rw [View.read_apply]
  show V c main_v23 _ = V c main_v23 y
  congr 1
  funext a
  apply Fin.ext
  match a with
  | ⟨0, _⟩ => show win0_4.index t (0 : Fin 2) * 1 + 1 * (y 0).val = (y 0).val; rw [e40]; omega
  | ⟨1, _⟩ => show win0_4.index t (1 : Fin 2) * 512 + 1 * (y 1).val = (y 1).val; rw [e41]; omega

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S1000x27) hz, View.ld_unit_zero (S := S27x512) hz, View.ld_unit_zero (S := S1x512) hz]
  rw [Dense.pay0_eq]
  obtain ⟨e00, e01, e10, e11, e20, e21, e30, e31, e40, e41, e50, e51⟩ := idx_facts t
  have hN : cfg0.N = 20 := N_0
  funext j
  have hj0 : (j 0).val < 1000 := (j 0).isLt
  have hj1 : (j 1).val < 512 := (j 1).isLt
  have hemb : ((cfg0.win 5).blk t).view.emb j
      = ix2 (⟨t.val * 1000 + (j 0).val, by have := t.isLt; omega⟩ : Fin 20000) (⟨(j 1).val, hj1⟩ : Fin 512) := by
    funext a
    apply Fin.ext
    match a with
    | ⟨0, _⟩ => show win0_5.index t (0 : Fin 2) * 1000 + 1 * (j 0).val = t.val * 1000 + (j 0).val; rw [e50]; omega
    | ⟨1, _⟩ => show win0_5.index t (1 : Fin 2) * 512 + 1 * (j 1).val = (j 1).val; rw [e51]; omega
  show Cert.Sage.linRelu (M := 1000) (K := 27) (N := 512) (iblk0 V c 0 t) (iblk0 V c 1 t) (iblk0 V c 2 t) (iblk0 V c 3 t)
      (fun q => (iblk0 V c 4 t : S1x512.Idx → EReal) (ix2 (0 : Fin 1) q)) j = G V c (((cfg0.win 5).blk t).view.emb j)
  rw [hemb, blk2 V c t, blk3 V c t, blk4 V c t]
  unfold G Cert.Sage.linRelu
  refine congrArg (max · 0) ?_
  exact Dense.linAt_rows _ _ _ _ _ _ _ (⟨(j 0).val, hj0⟩ : Fin 1000) _ (⟨(j 1).val, hj1⟩ : Fin 512)
    (fun x => blk0_row V c t _ x _ rfl) (fun x => blk1_row V c t _ x _ rfl)

/-- An index of the result array is in point `t`'s block iff each coordinate is in the block's range on its axis. -/
theorem mem_blk (t : Fin cfg0.N) (i : S20000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v24).slice (win0_5.rect t)).set ↔ _
  rw [View.set_slice_whole, Rect.mem_set_unit]
  exact Iff.rfl

/-- The row blocks tile the result: row `r` lies in the block of point `r / 1000`. -/
theorem cover (i : S20000x512.Idx) :
    ∃ t : Fin cfg0.N, (cfg0.win 5).flush t = true ∧ i ∈ ((cfg0.win 5).blk t).view.set := by
  have hN : cfg0.N = 20 := N_0
  have hi0 : (i 0).val < 20000 := (i 0).isLt
  have hi1 : (i 1).val < 512 := (i 1).isLt
  let t : Fin cfg0.N := ⟨(i 0).val / 1000, by omega⟩
  obtain ⟨e00, e01, e10, e11, e20, e21, e30, e31, e40, e41, e50, e51⟩ := idx_facts t
  have ht : t.val = (i 0).val / 1000 := rfl
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; rw [e50, ht]; omega
  | ⟨1, _⟩ => show win0_5.index t (1 : Fin 2) * 512 ≤ (i 1).val ∧ (i 1).val < win0_5.index t (1 : Fin 2) * 512 + 512; rw [e51]; omega

/-- After the region the result array is the layer of the whole arrays as the region found them. -/
theorem final (c : Dev nD) : (dat0 V c).arrAt 5 cfg0.N = G V c :=
  (dat0 V c).arrAt_eq_of_cover 5 (G V c) (fun t _ => flushed_eq V c t) cover

end Cert.Bridge.Region0

end
-- ==== Proof.KHost0.lean ====
/-
  The idealized kernel program up to the end of its first region, read as values: the host operations before the
  region compute the reciprocal degrees, the neighbour mean of the input features, and hand the weights (rounded to
  sixteen bits, the identity on the extended reals) and the bias (as a row) to the region, which leaves layer 0.
-/
import proofs.«174093_j15590731285056_1_alg».proof.Proof.Gen.KernelIdeal.Frame
import proofs.«174093_j15590731285056_1_alg».proof.Proof.SpecK
import proofs.«174093_j15590731285056_1_alg».proof.Proof.Net
import proofs.«174093_j15590731285056_1_alg».proof.Proof.Region0
import Idealize.ShloMosaic.Lib.StableHlo.Run
import Idealize.ShloMosaic.Lib.ValueLayout

set_option maxRecDepth 16384

noncomputable section

namespace Cert.Bridge.KHost

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The network's first layer of the launch arrays. -/
def h1 (c : Dev nD) : Net.X512 :=
  Net.h1 (fun h => K.agg27 h (m ((c : Thread nD τ).loc main_arg1)) (m ((c : Thread nD τ).loc main_arg2))) (m ((c : Thread nD τ).loc main_arg0)) (m ((c : Thread nD τ).loc main_arg4)) (m ((c : Thread nD τ).loc main_arg5)) (m ((c : Thread nD τ).loc main_arg6))

/-! ## After the first host stretch -/

theorem L1_a0 (c : Dev nD) : W1 m ρ c (Proc.devRef .tc main_arg0) = m ((c : Thread nD τ).loc main_arg0) := by
  show StableHlo.after hostOps0 (W0 m ρ c) (Proc.devRef .tc main_arg0) = _
  after_results_simp
  try rfl

theorem L1_a1 (c : Dev nD) : W1 m ρ c (Proc.devRef .tc main_arg1) = m ((c : Thread nD τ).loc main_arg1) := by
  show StableHlo.after hostOps0 (W0 m ρ c) (Proc.devRef .tc main_arg1) = _
  after_results_simp
  try rfl

theorem L1_a2 (c : Dev nD) : W1 m ρ c (Proc.devRef .tc main_arg2) = m ((c : Thread nD τ).loc main_arg2) := by
  show StableHlo.after hostOps0 (W0 m ρ c) (Proc.devRef .tc main_arg2) = _
  after_results_simp
  try rfl

theorem L1_a3 (c : Dev nD) : W1 m ρ c (Proc.devRef .tc main_arg3) = m ((c : Thread nD τ).loc main_arg3) := by
  show StableHlo.after hostOps0 (W0 m ρ c) (Proc.devRef .tc main_arg3) = _
  after_results_simp
  try rfl

theorem L1_a7 (c : Dev nD) : W1 m ρ c (Proc.devRef .tc main_arg7) = m ((c : Thread nD τ).loc main_arg7) := by
  show StableHlo.after hostOps0 (W0 m ρ c) (Proc.devRef .tc main_arg7) = _
  after_results_simp
  try rfl

theorem L1_a8 (c : Dev nD) : W1 m ρ c (Proc.devRef .tc main_arg8) = m ((c : Thread nD τ).loc main_arg8) := by
  show StableHlo.after hostOps0 (W0 m ρ c) (Proc.devRef .tc main_arg8) = _
  after_results_simp
  try rfl

theorem L1_a9 (c : Dev nD) : W1 m ρ c (Proc.devRef .tc main_arg9) = m ((c : Thread nD τ).loc main_arg9) := by
  show StableHlo.after hostOps0 (W0 m ρ c) (Proc.devRef .tc main_arg9) = _
  after_results_simp
  try rfl

theorem L1_a10 (c : Dev nD) : W1 m ρ c (Proc.devRef .tc main_arg10) = m ((c : Thread nD τ).loc main_arg10) := by
  show StableHlo.after hostOps0 (W0 m ρ c) (Proc.devRef .tc main_arg10) = _
  after_results_simp
  try rfl

theorem L1_a11 (c : Dev nD) : W1 m ρ c (Proc.devRef .tc main_arg11) = m ((c : Thread nD τ).loc main_arg11) := by
  show StableHlo.after hostOps0 (W0 m ρ c) (Proc.devRef .tc main_arg11) = _
  after_results_simp
  try rfl

theorem L1_a12 (c : Dev nD) : W1 m ρ c (Proc.devRef .tc main_arg12) = m ((c : Thread nD τ).loc main_arg12) := by
  show StableHlo.after hostOps0 (W0 m ρ c) (Proc.devRef .tc main_arg12) = _
  after_results_simp
  try rfl

/-- The reciprocal degrees. -/
theorem L1_v8 (c : Dev nD) : W1 m ρ c (Proc.devRef .tc main_v8) = K.invDeg (m ((c : Thread nD τ).loc main_arg2)) := by
  show StableHlo.after hostOps0 (W0 m ρ c) (Proc.devRef .tc main_v8) = _
  after_results_simp
  try rfl

/-- The neighbour mean of the input features. -/
theorem L1_v20 (c : Dev nD) : W1 m ρ c (Proc.devRef .tc main_v20) = K.agg27 (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  try rfl

/-- The self weights, rounded: the same extended reals. -/
theorem L1_v21 (c : Dev nD) : (W1 m ρ c (Proc.devRef .tc main_v21) : S27x512.Idx → EReal) = m ((c : Thread nD τ).loc main_arg4) := by
  show StableHlo.after hostOps0 (W0 m ρ c) (Proc.devRef .tc main_v21) = _
  after_results_simp
  try rfl

theorem L1_v22 (c : Dev nD) : (W1 m ρ c (Proc.devRef .tc main_v22) : S27x512.Idx → EReal) = m ((c : Thread nD τ).loc main_arg5) := by
  show StableHlo.after hostOps0 (W0 m ρ c) (Proc.devRef .tc main_v22) = _
  after_results_simp
  try rfl

/-- The bias as a row. -/
theorem L1_v23 (c : Dev nD) (q : Fin 512) :
    (W1 m ρ c (Proc.devRef .tc main_v23) : S1x512.Idx → EReal) (ix2 (0 : Fin 1) q) = (m ((c : Thread nD τ).loc main_arg6) : S512.Idx → EReal) (ix1 q) := by
  show StableHlo.after hostOps0 (W0 m ρ c) (Proc.devRef .tc main_v23) (ix2 (0 : Fin 1) q) = _
  after_results_simp
  exact shapeCast_a_1a_apply _ _ (0 : Fin 1) q

/-! ## After the first region -/

/-- Region 0 leaves layer 0. -/
theorem L2_v24 (c : Dev nD) : W2 m ρ c (Proc.devRef .tc main_v24) = h1 m c := by
  refine (W2_arr m ρ c 5).trans ((Region0.final (V1 m ρ) c).trans ?_)
  show Cert.Sage.linRelu (M := 20000) (K := 27) (N := 512) (W1 m ρ c (Proc.devRef .tc main_arg0)) (W1 m ρ c (Proc.devRef .tc main_v20))
      (W1 m ρ c (Proc.devRef .tc main_v21) : S27x512.Idx → EReal) (W1 m ρ c (Proc.devRef .tc main_v22) : S27x512.Idx → EReal)
      (fun q => (W1 m ρ c (Proc.devRef .tc main_v23) : S1x512.Idx → EReal) (ix2 (0 : Fin 1) q)) = _
  rw [L1_a0 m ρ c, L1_v20 m ρ c, L1_v21 m ρ c, L1_v22 m ρ c]
  simp only [L1_v23 m ρ c]
  rfl

theorem L2_a1 (c : Dev nD) : W2 m ρ c (Proc.devRef .tc main_arg1) = m ((c : Thread nD τ).loc main_arg1) :=
  (W2_of_ne m ρ c main_arg1 (by decide)).trans (L1_a1 m ρ c)

theorem L2_a2 (c : Dev nD) : W2 m ρ c (Proc.devRef .tc main_arg2) = m ((c : Thread nD τ).loc main_arg2) :=
  (W2_of_ne m ρ c main_arg2 (by decide)).trans (L1_a2 m ρ c)

theorem L2_a3 (c : Dev nD) : W2 m ρ c (Proc.devRef .tc main_arg3) = m ((c : Thread nD τ).loc main_arg3) :=
  (W2_of_ne m ρ c main_arg3 (by decide)).trans (L1_a3 m ρ c)

theorem L2_a7 (c : Dev nD) : W2 m ρ c (Proc.devRef .tc main_arg7) = m ((c : Thread nD τ).loc main_arg7) :=
  (W2_of_ne m ρ c main_arg7 (by decide)).trans (L1_a7 m ρ c)

theorem L2_a8 (c : Dev nD) : W2 m ρ c (Proc.devRef .tc main_arg8) = m ((c : Thread nD τ).loc main_arg8) :=
  (W2_of_ne m ρ c main_arg8 (by decide)).trans (L1_a8 m ρ c)

theorem L2_a9 (c : Dev nD) : W2 m ρ c (Proc.devRef .tc main_arg9) = m ((c : Thread nD τ).loc main_arg9) :=
  (W2_of_ne m ρ c main_arg9 (by decide)).trans (L1_a9 m ρ c)

theorem L2_a10 (c : Dev nD) : W2 m ρ c (Proc.devRef .tc main_arg10) = m ((c : Thread nD τ).loc main_arg10) :=
  (W2_of_ne m ρ c main_arg10 (by decide)).trans (L1_a10 m ρ c)

theorem L2_a11 (c : Dev nD) : W2 m ρ c (Proc.devRef .tc main_arg11) = m ((c : Thread nD τ).loc main_arg11) :=
  (W2_of_ne m ρ c main_arg11 (by decide)).trans (L1_a11 m ρ c)

theorem L2_a12 (c : Dev nD) : W2 m ρ c (Proc.devRef .tc main_arg12) = m ((c : Thread nD τ).loc main_arg12) :=
  (W2_of_ne m ρ c main_arg12 (by decide)).trans (L1_a12 m ρ c)

theorem L2_v8 (c : Dev nD) : W2 m ρ c (Proc.devRef .tc main_v8) = K.invDeg (m ((c : Thread nD τ).loc main_arg2)) :=
  (W2_of_ne m ρ c main_v8 (by decide)).trans (L1_v8 m ρ c)

end Cert.Bridge.KHost

end
-- ==== Proof.KHost1.lean ====
/-
  The idealized kernel program between its first and second regions, read as values: the host operations take the
  neighbour mean of layer 0 and hand the second layer's weights and bias to region 1, which leaves layer 1.
-/
import proofs.«174093_j15590731285056_1_alg».proof.Proof.Gen.KernelIdeal.Frame
import proofs.«174093_j15590731285056_1_alg».proof.Proof.SpecK
import proofs.«174093_j15590731285056_1_alg».proof.Proof.Net
import proofs.«174093_j15590731285056_1_alg».proof.Proof.Region1
import proofs.«174093_j15590731285056_1_alg».proof.Proof.KHost0
import Idealize.ShloMosaic.Lib.StableHlo.Run
import Idealize.ShloMosaic.Lib.ValueLayout

set_option maxRecDepth 16384

noncomputable section

namespace Cert.Bridge.KHost

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The network's second layer of the launch arrays. -/
def h2 (c : Dev nD) : Net.X512 :=
  Net.h2 (fun h => K.agg512 h (m ((c : Thread nD τ).loc main_arg1)) (m ((c : Thread nD τ).loc main_arg2))) (h1 m c) (m ((c : Thread nD τ).loc main_arg7)) (m ((c : Thread nD τ).loc main_arg8)) (m ((c : Thread nD τ).loc main_arg9))

/-! ## After the second host stretch -/

theorem L3_a1 (c : Dev nD) : W3 m ρ c (Proc.devRef .tc main_arg1) = m ((c : Thread nD τ).loc main_arg1) := by
  show StableHlo.after hostOps1 (W2 m ρ c) (Proc.devRef .tc main_arg1) = _
  after_results_simp
  exact L2_a1 m ρ c

theorem L3_a2 (c : Dev nD) : W3 m ρ c (Proc.devRef .tc main_arg2) = m ((c : Thread nD τ).loc main_arg2) := by
  show StableHlo.after hostOps1 (W2 m ρ c) (Proc.devRef .tc main_arg2) = _
  after_results_simp
  exact L2_a2 m ρ c

theorem L3_a3 (c : Dev nD) : W3 m ρ c (Proc.devRef .tc main_arg3) = m ((c : Thread nD τ).loc main_arg3) := by
  show StableHlo.after hostOps1 (W2 m ρ c) (Proc.devRef .tc main_arg3) = _
  after_results_simp
  exact L2_a3 m ρ c

theorem L3_a10 (c : Dev nD) : W3 m ρ c (Proc.devRef .tc main_arg10) = m ((c : Thread nD τ).loc main_arg10) := by
  show StableHlo.after hostOps1 (W2 m ρ c) (Proc.devRef .tc main_arg10) = _
  after_results_simp
  exact L2_a10 m ρ c

theorem L3_a11 (c : Dev nD) : W3 m ρ c (Proc.devRef .tc main_arg11) = m ((c : Thread nD τ).loc main_arg11) := by
  show StableHlo.after hostOps1 (W2 m ρ c) (Proc.devRef .tc main_arg11) = _
  after_results_simp
  exact L2_a11 m ρ c

theorem L3_a12 (c : Dev nD) : W3 m ρ c (Proc.devRef .tc main_arg12) = m ((c : Thread nD τ).loc main_arg12) := by
  show StableHlo.after hostOps1 (W2 m ρ c) (Proc.devRef .tc main_arg12) = _
  after_results_simp
  exact L2_a12 m ρ c

theorem L3_v8 (c : Dev nD) : W3 m ρ c (Proc.devRef .tc main_v8) = K.invDeg (m ((c : Thread nD τ).loc main_arg2)) := by
  show StableHlo.after hostOps1 (W2 m ρ c) (Proc.devRef .tc main_v8) = _
  after_results_simp
  exact L2_v8 m ρ c

theorem L3_v24 (c : Dev nD) : W3 m ρ c (Proc.devRef .tc main_v24) = h1 m c := by
  show StableHlo.after hostOps1 (W2 m ρ c) (Proc.devRef .tc main_v24) = _
  after_results_simp
  exact L2_v24 m ρ c

/-- The neighbour mean of layer 0. -/
theorem L3_v36 (c : Dev nD) : W3 m ρ c (Proc.devRef .tc main_v36) = K.agg512 (h1 m c) (m ((c : Thread nD τ).loc main_arg1)) (m ((c : Thread nD τ).loc main_arg2)) := by
  show StableHlo.after hostOps1 (W2 m ρ c) (Proc.devRef .tc main_v36) = _
  after_results_simp
  rw [L2_v24 m ρ c, L2_a1 m ρ c, L2_a2 m ρ c, L2_v8 m ρ c]
  rfl

theorem L3_v37 (c : Dev nD) : (W3 m ρ c (Proc.devRef .tc main_v37) : S512x512.Idx → EReal) = m ((c : Thread nD τ).loc main_arg7) := by
  show StableHlo.after hostOps1 (W2 m ρ c) (Proc.devRef .tc main_v37) = _
  after_results_simp
  rw [L2_a7 m ρ c]
  rfl

theorem L3_v38 (c : Dev nD) : (W3 m ρ c (Proc.devRef .tc main_v38) : S512x512.Idx → EReal) = m ((c : Thread nD τ).loc main_arg8) := by
  show StableHlo.after hostOps1 (W2 m ρ c) (Proc.devRef .tc main_v38) = _
  after_results_simp
  rw [L2_a8 m ρ c]
  rfl

theorem L3_v39 (c : Dev nD) (q : Fin 512) :
    (W3 m ρ c (Proc.devRef .tc main_v39) : S1x512.Idx → EReal) (ix2 (0 : Fin 1) q) = (m ((c : Thread nD τ).loc main_arg9) : S512.Idx → EReal) (ix1 q) := by
  show StableHlo.after hostOps1 (W2 m ρ c) (Proc.devRef .tc main_v39) (ix2 (0 : Fin 1) q) = _
  after_results_simp
  rw [L2_a9 m ρ c]
  exact shapeCast_a_1a_apply _ _ (0 : Fin 1) q

/-! ## After the second region -/

/-- Region 1 leaves layer 1. -/
theorem L4_v40 (c : Dev nD) : W4 m ρ c (Proc.devRef .tc main_v40) = h2 m c := by
  refine (W4_arr m ρ c 5).trans ((Region1.final (V3 m ρ) c).trans ?_)
  show Cert.Sage.linRelu (M := 20000) (K := 512) (N := 512) (W3 m ρ c (Proc.devRef .tc main_v24)) (W3 m ρ c (Proc.devRef .tc main_v36))
      (W3 m ρ c (Proc.devRef .tc main_v37) : S512x512.Idx → EReal) (W3 m ρ c (Proc.devRef .tc main_v38) : S512x512.Idx → EReal)
      (fun q => (W3 m ρ c (Proc.devRef .tc main_v39) : S1x512.Idx → EReal) (ix2 (0 : Fin 1) q)) = _
  rw [L3_v24 m ρ c, L3_v36 m ρ c, L3_v37 m ρ c, L3_v38 m ρ c]
  simp only [L3_v39 m ρ c]
  rfl

theorem L4_a1 (c : Dev nD) : W4 m ρ c (Proc.devRef .tc main_arg1) = m ((c : Thread nD τ).loc main_arg1) :=
  (W4_of_ne m ρ c main_arg1 (by decide)).trans (L3_a1 m ρ c)

theorem L4_a2 (c : Dev nD) : W4 m ρ c (Proc.devRef .tc main_arg2) = m ((c : Thread nD τ).loc main_arg2) :=
  (W4_of_ne m ρ c main_arg2 (by decide)).trans (L3_a2 m ρ c)

theorem L4_a3 (c : Dev nD) : W4 m ρ c (Proc.devRef .tc main_arg3) = m ((c : Thread nD τ).loc main_arg3) :=
  (W4_of_ne m ρ c main_arg3 (by decide)).trans (L3_a3 m ρ c)

theorem L4_a10 (c : Dev nD) : W4 m ρ c (Proc.devRef .tc main_arg10) = m ((c : Thread nD τ).loc main_arg10) :=
  (W4_of_ne m ρ c main_arg10 (by decide)).trans (L3_a10 m ρ c)

theorem L4_a11 (c : Dev nD) : W4 m ρ c (Proc.devRef .tc main_arg11) = m ((c : Thread nD τ).loc main_arg11) :=
  (W4_of_ne m ρ c main_arg11 (by decide)).trans (L3_a11 m ρ c)

theorem L4_a12 (c : Dev nD) : W4 m ρ c (Proc.devRef .tc main_arg12) = m ((c : Thread nD τ).loc main_arg12) :=
  (W4_of_ne m ρ c main_arg12 (by decide)).trans (L3_a12 m ρ c)

theorem L4_v8 (c : Dev nD) : W4 m ρ c (Proc.devRef .tc main_v8) = K.invDeg (m ((c : Thread nD τ).loc main_arg2)) :=
  (W4_of_ne m ρ c main_v8 (by decide)).trans (L3_v8 m ρ c)

end Cert.Bridge.KHost

end
-- ==== Proof.KHost2.lean ====
/-
  The idealized kernel program from its second region to its return, read as values: the host operations take the
  neighbour mean of layer 1 and hand the third layer's weights and bias to region 2, which leaves layer 2 — the first
  result; the host operations after it take its per-graph mean — the second result.
-/
import proofs.«174093_j15590731285056_1_alg».proof.Proof.Gen.KernelIdeal.Frame
import proofs.«174093_j15590731285056_1_alg».proof.Proof.SpecK
import proofs.«174093_j15590731285056_1_alg».proof.Proof.Net
import proofs.«174093_j15590731285056_1_alg».proof.Proof.Region2
import proofs.«174093_j15590731285056_1_alg».proof.Proof.KHost1
import Idealize.ShloMosaic.Lib.StableHlo.Run
import Idealize.ShloMosaic.Lib.ValueLayout

set_option maxRecDepth 16384

noncomputable section

namespace Cert.Bridge.KHost

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The network's third layer of the launch arrays. -/
def h3 (c : Dev nD) : Net.X256 :=
  Net.h3 (fun h => K.agg512 h (m ((c : Thread nD τ).loc main_arg1)) (m ((c : Thread nD τ).loc main_arg2))) (h2 m c) (m ((c : Thread nD τ).loc main_arg10)) (m ((c : Thread nD τ).loc main_arg11)) (m ((c : Thread nD τ).loc main_arg12))

/-! ## After the third host stretch -/

theorem L5_a3 (c : Dev nD) : W5 m ρ c (Proc.devRef .tc main_arg3) = m ((c : Thread nD τ).loc main_arg3) := by
  show StableHlo.after hostOps2 (W4 m ρ c) (Proc.devRef .tc main_arg3) = _
  after_results_simp
  exact L4_a3 m ρ c

theorem L5_v40 (c : Dev nD) : W5 m ρ c (Proc.devRef .tc main_v40) = h2 m c := by
  show StableHlo.after hostOps2 (W4 m ρ c) (Proc.devRef .tc main_v40) = _
  after_results_simp
  exact L4_v40 m ρ c

/-- The neighbour mean of layer 1. -/
theorem L5_v52 (c : Dev nD) : W5 m ρ c (Proc.devRef .tc main_v52) = K.agg512 (h2 m c) (m ((c : Thread nD τ).loc main_arg1)) (m ((c : Thread nD τ).loc main_arg2)) := by
  show StableHlo.after hostOps2 (W4 m ρ c) (Proc.devRef .tc main_v52) = _
  after_results_simp
  rw [L4_v40 m ρ c, L4_a1 m ρ c, L4_a2 m ρ c, L4_v8 m ρ c]
  rfl

theorem L5_v53 (c : Dev nD) : (W5 m ρ c (Proc.devRef .tc main_v53) : S512x256.Idx → EReal) = m ((c : Thread nD τ).loc main_arg10) := by
  show StableHlo.after hostOps2 (W4 m ρ c) (Proc.devRef .tc main_v53) = _
  after_results_simp
  rw [L4_a10 m ρ c]
  rfl

theorem L5_v54 (c : Dev nD) : (W5 m ρ c (Proc.devRef .tc main_v54) : S512x256.Idx → EReal) = m ((c : Thread nD τ).loc main_arg11) := by
  show StableHlo.after hostOps2 (W4 m ρ c) (Proc.devRef .tc main_v54) = _
  after_results_simp
  rw [L4_a11 m ρ c]
  rfl

theorem L5_v55 (c : Dev nD) (q : Fin 256) :
    (W5 m ρ c (Proc.devRef .tc main_v55) : S1x256.Idx → EReal) (ix2 (0 : Fin 1) q) = (m ((c : Thread nD τ).loc main_arg12) : S256.Idx → EReal) (ix1 q) := by
  show StableHlo.after hostOps2 (W4 m ρ c) (Proc.devRef .tc main_v55) (ix2 (0 : Fin 1) q) = _
  after_results_simp
  rw [L4_a12 m ρ c]
  exact shapeCast_a_1a_apply _ _ (0 : Fin 1) q

/-! ## After the third region -/

/-- Region 2 leaves layer 2. -/
theorem L6_v56 (c : Dev nD) : W6 m ρ c (Proc.devRef .tc main_v56) = h3 m c := by
  refine (W6_arr m ρ c 5).trans ((Region2.final (V5 m ρ) c).trans ?_)
  show Cert.Sage.lin (M := 20000) (K := 512) (N := 256) (W5 m ρ c (Proc.devRef .tc main_v40)) (W5 m ρ c (Proc.devRef .tc main_v52))
      (W5 m ρ c (Proc.devRef .tc main_v53) : S512x256.Idx → EReal) (W5 m ρ c (Proc.devRef .tc main_v54) : S512x256.Idx → EReal)
      (fun q => (W5 m ρ c (Proc.devRef .tc main_v55) : S1x256.Idx → EReal) (ix2 (0 : Fin 1) q)) = _
  rw [L5_v40 m ρ c, L5_v52 m ρ c, L5_v53 m ρ c, L5_v54 m ρ c]
  simp only [L5_v55 m ρ c]
  rfl

theorem L6_a3 (c : Dev nD) : W6 m ρ c (Proc.devRef .tc main_arg3) = m ((c : Thread nD τ).loc main_arg3) :=
  (W6_of_ne m ρ c main_arg3 (by decide)).trans (L5_a3 m ρ c)

/-! ## At the return -/

/-- The first result: layer 2. -/
theorem L7_v56 (c : Dev nD) : W7 m ρ c (Proc.devRef .tc main_v56) = h3 m c := by
  show StableHlo.after hostOps3 (W6 m ρ c) (Proc.devRef .tc main_v56) = _
  after_results_simp
  exact L6_v56 m ρ c

/-- The second result: the per-graph mean of layer 2. -/
theorem L7_v68 (c : Dev nD) : W7 m ρ c (Proc.devRef .tc main_v68) = K.pool (h3 m c) (m ((c : Thread nD τ).loc main_arg3)) := by
  show StableHlo.after hostOps3 (W6 m ρ c) (Proc.devRef .tc main_v68) = _
  after_results_simp
  rw [L6_v56 m ρ c, L6_a3 m ρ c]
  rfl

end Cert.Bridge.KHost

end
-- ==== Proof.SpecR.lean ====
/-
  The host stages that both programs apply around the dense layers, each named once as a function on the extended
  reals, spelt with `ReferenceIdeal`'s printed dimension records.

  `invDeg dst` is the column of reciprocals 1 / max(deg, 1), where deg(n) counts the edges whose destination is n.
  `srcIdx src` is the column of source nodes, a negative index wrapped by the node count (jnp's indexing rule).
  `agg27 h src dst` and `agg512 h src dst` are the neighbour means: row n is the sum of the rows h[src e] over the edges e
  with dst e = n, times invDeg n. `pool h gid` is the per-graph mean of the node rows: the sum of the rows of each
  graph divided by max(count, 1).
-/
import proofs.«174093_j15590731285056_1_alg».proof.ReferenceIdeal
import proofs.«174093_j15590731285056_1_alg».proof.Proof.Gen.ReferenceIdeal
import Idealize.ShloMosaic.PureOps.Ideal

noncomputable section

namespace Cert.Bridge.R

open Idealize.ShloMosaic Cert.ReferenceIdeal Cert.ReferenceIdeal.Facts₀ Cert.ReferenceIdeal.Facts

/-- 1 / max(deg, 1) as a column, deg the number of edges into each node. -/
def invDeg (dst : IVec S160000 32) : FVec Ideal S20000x1 .f32 :=
  broadcastInDim S20000x1 ![0] bcast_S20000_S20000x1_0
    (Host.divf (broadcastInDim S20000 ![] bcast_S_S20000 (constant (F := Ideal) S_ .f32 0x3F800000#32))
      (maximumf
        (Host.scatterAdd scatter_S20000_S160000x1_S160000_n_0_0_1
          (broadcastInDim S20000 ![] bcast_S_S20000 (constant (F := Ideal) S_ .f32 0x00000000#32))
          (broadcastInDim S160000x1 ![0] bcast_S160000_S160000x1_0 dst)
          (broadcastInDim S160000 ![] bcast_S_S160000 (constant (F := Ideal) S_ .f32 0x3F800000#32)))
        (broadcastInDim S20000 ![] bcast_S_S20000 (constant (F := Ideal) S_ .f32 0x3F800000#32))))

/-- The source node of each edge as a column of start indices, a negative index wrapped by the node count. -/
def srcIdx (src : IVec S160000 32) : IVec S160000x1 32 :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 20000#32))) src)

/-- The neighbour mean of 27 features: gathered source rows summed into their destination rows, times 1 / max(deg, 1). -/
def agg27 (h : FVec Ideal S20000x27 .f32) (src dst : IVec S160000 32) : FVec Ideal S20000x27 .f32 :=
  mulf
    (Host.scatterAdd scatter_S20000x27_S160000x1_S160000x27_1_0_0_1
      (broadcastInDim S20000x27 ![] bcast_S_S20000x27 (constant (F := Ideal) S_ .f32 0x00000000#32))
      (broadcastInDim S160000x1 ![0] bcast_S160000_S160000x1_0 dst)
      (Host.gather gather_S20000x27_S160000x1_S160000x27_1_0_n_n_0_1_127 h (srcIdx src)))
    (broadcastInDim S20000x27 ![0, 1] bcast_S20000x1_S20000x27_0_1 (invDeg dst))

/-- The neighbour mean of 512 features. -/
def agg512 (h : FVec Ideal S20000x512 .f32) (src dst : IVec S160000 32) : FVec Ideal S20000x512 .f32 :=
  mulf
    (Host.scatterAdd scatter_S20000x512_S160000x1_S160000x512_1_0_0_1
      (broadcastInDim S20000x512 ![] bcast_S_S20000x512 (constant (F := Ideal) S_ .f32 0x00000000#32))
      (broadcastInDim S160000x1 ![0] bcast_S160000_S160000x1_0 dst)
      (Host.gather gather_S20000x512_S160000x1_S160000x512_1_0_n_n_0_1_1512 h (srcIdx src)))
    (broadcastInDim S20000x512 ![0, 1] bcast_S20000x1_S20000x512_0_1 (invDeg dst))

/-- The per-graph mean of the node rows: each graph's rows summed, divided by max(count, 1). -/
def pool (h : FVec Ideal S20000x256 .f32) (gid : IVec S20000 32) : FVec Ideal S32x256 .f32 :=
  Host.divf
    (Host.scatterAdd scatter_S32x256_S20000x1_S20000x256_1_0_0_1
      (broadcastInDim S32x256 ![] bcast_S_S32x256 (constant (F := Ideal) S_ .f32 0x00000000#32))
      (broadcastInDim S20000x1 ![0] bcast_S20000_S20000x1_0 gid) h)
    (broadcastInDim S32x256 ![0, 1] bcast_S32x1_S32x256_0_1
      (broadcastInDim S32x1 ![0] bcast_S32_S32x1_0
        (maximumf
          (Host.scatterAdd scatter_S32_S20000x1_S20000_n_0_0_1
            (broadcastInDim S32 ![] bcast_S_S32 (constant (F := Ideal) S_ .f32 0x00000000#32))
            (broadcastInDim S20000x1 ![0] bcast_S20000_S20000x1_0 gid)
            (broadcastInDim S20000 ![] bcast_S_S20000 (constant (F := Ideal) S_ .f32 0x3F800000#32)))
          (broadcastInDim S32 ![] bcast_S_S32 (constant (F := Ideal) S_ .f32 0x3F800000#32)))))

end Cert.Bridge.R

end
-- ==== Proof.RHost.lean ====
/-
  The reference's two results as the network of its argument arrays: each of its three layers — two whole matrix
  products, their sum, the bias spread along the rows, and for the first two the clamp at zero — is the SAGE layer
  index by index, and the host stages between them are the named neighbour means; the second result is the per-graph
  mean of the first.
-/
import proofs.«174093_j15590731285056_1_alg».proof.Proof.Gen.ReferenceIdeal.Run
import proofs.«174093_j15590731285056_1_alg».proof.Proof.SpecR
import proofs.«174093_j15590731285056_1_alg».proof.Proof.Net

set_option maxRecDepth 16384

noncomputable section

namespace Cert.Bridge.RHost

open Idealize.ShloMosaic Idealize.ShloMosaic.TcCoe Idealize.SL.Sem Idealize.ShloMosaic.ValueIdx
open Cert.ReferenceIdeal Cert.ReferenceIdeal.Gen Cert.ReferenceIdeal.Value

variable (m : (ℓ : Loc nD τ sig) → Buf (Elt Ideal) ℓ)

/-- The network's layers of the reference's launch arrays. -/
def h1 (c : Dev nD) : Net.X512 :=
  Net.h1 (fun h => R.agg27 h (m ((c.tc : Thread nD τ).loc main_arg1)) (m ((c.tc : Thread nD τ).loc main_arg2))) (m ((c.tc : Thread nD τ).loc main_arg0)) (m ((c.tc : Thread nD τ).loc main_arg4)) (m ((c.tc : Thread nD τ).loc main_arg5)) (m ((c.tc : Thread nD τ).loc main_arg6))

def h2 (c : Dev nD) : Net.X512 :=
  Net.h2 (fun h => R.agg512 h (m ((c.tc : Thread nD τ).loc main_arg1)) (m ((c.tc : Thread nD τ).loc main_arg2))) (h1 m c) (m ((c.tc : Thread nD τ).loc main_arg7)) (m ((c.tc : Thread nD τ).loc main_arg8)) (m ((c.tc : Thread nD τ).loc main_arg9))

def h3 (c : Dev nD) : Net.X256 :=
  Net.h3 (fun h => R.agg512 h (m ((c.tc : Thread nD τ).loc main_arg1)) (m ((c.tc : Thread nD τ).loc main_arg2))) (h2 m c) (m ((c.tc : Thread nD τ).loc main_arg10)) (m ((c.tc : Thread nD τ).loc main_arg11)) (m ((c.tc : Thread nD τ).loc main_arg12))

set_option maxHeartbeats 4000000 in
/-- The first result is the third layer. -/
theorem res0_eq (c : Dev nD) : res_main_v64 (F := Ideal) m c = h3 m c := by
  unfold res_main_v64
  rw [Cert.Sage.host_linRelu dot_S20000x27_S27x512_S20000x512_1_0_0_1_n_n rfl rfl rfl rfl rfl rfl
      ![1] bcast_S512_S1x512_1 rfl ![0, 1] bcast_S1x512_S20000x512_0_1 rfl ![] bcast_S_S20000x512]
  rw [Cert.Sage.host_linRelu dot_S20000x512_S512x512_S20000x512_1_0_0_1_n_n rfl rfl rfl rfl rfl rfl
      ![1] bcast_S512_S1x512_1 rfl ![0, 1] bcast_S1x512_S20000x512_0_1 rfl ![] bcast_S_S20000x512]
  rw [Cert.Sage.host_lin dot_S20000x512_S512x256_S20000x256_1_0_0_1_n_n rfl rfl rfl rfl rfl rfl
      ![1] bcast_S256_S1x256_1 rfl ![0, 1] bcast_S1x256_S20000x256_0_1 rfl]
  rfl

set_option maxHeartbeats 4000000 in
/-- The second result is the per-graph mean of the first. -/
theorem res1_eq (c : Dev nD) : res_main_v76 (F := Ideal) m c = R.pool (h3 m c) (m ((c.tc : Thread nD τ).loc main_arg3)) := by
  rw [← res0_eq m c]
  unfold res_main_v76 res_main_v64 R.pool
  rfl

end Cert.Bridge.RHost

end
-- ==== Proof.KtoR.lean ====
/-
  The host stages are spelt once per program, over each program's own printed dimension records; the records are the
  same numbers, so the stages are the same functions.
-/
import proofs.«174093_j15590731285056_1_alg».proof.Proof.SpecK
import proofs.«174093_j15590731285056_1_alg».proof.Proof.SpecR

noncomputable section

namespace Cert.Bridge

open Idealize.ShloMosaic

theorem agg27_eq : K.agg27 = R.agg27 := rfl
theorem agg512_eq : K.agg512 = R.agg512 := rfl
theorem pool_eq : K.pool = R.pool := rfl

end Cert.Bridge

end
-- ==== Proof.Agree.lean ====
/-
  From launch memories that agree on the thirteen arguments the two programs compute one network: the reference's
  layers of its arrays are the kernel program's layers of its own, the neighbour means being the same functions.
-/
import proofs.«174093_j15590731285056_1_alg».proof.Proof.KHost2
import proofs.«174093_j15590731285056_1_alg».proof.Proof.RHost
import proofs.«174093_j15590731285056_1_alg».proof.Proof.KtoR

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The third layer agrees. -/
theorem h3_agree (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    RHost.h3 m' c = KHost.h3 m c := by
  obtain ⟨e0, e1, e2, e3, e4, e5, e6, e7, e8, e9, e10, e11, e12⟩ := hag
  unfold RHost.h3 RHost.h2 RHost.h1 KHost.h3 KHost.h2 KHost.h1
  rw [e0, e1, e2, e4, e5, e6, e7, e8, e9, e10, e11, e12, agg27_eq, agg512_eq]

/-- The per-graph mean agrees. -/
theorem pool_agree (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    R.pool (RHost.h3 m' c) (m' ((c.tc : Thread Cert.ReferenceIdeal.nD Cert.ReferenceIdeal.τ).loc Cert.ReferenceIdeal.main_arg3)) = K.pool (KHost.h3 m c) (m ((c.tc : Thread Cert.KernelIdeal.nD Cert.KernelIdeal.τ).loc Cert.KernelIdeal.main_arg3)) := by
  rw [h3_agree m m' c hag, hag.2.2.2.1, pool_eq]

end Cert.Bridge

end
-- ==== Proof.lean ====
/-
  The claim. Both programs compute a three-layer SAGE network on a graph of 20000 nodes and 160000 edges and its
  per-graph mean: each layer is  h · W_self + mean(h) · W_neigh + b  (the first two clamped at zero), mean(h) the sum
  of the source rows over the edges into a node times 1 / max(deg, 1).

  The kernel program does the gather, the scatter-add and the pooling on the host and each layer's two matrix
  products, bias and clamp in a kernel region tiled over blocks of 1000 rows; the reference does everything on the
  host. On the extended reals the roundings to sixteen bits are the identity, a matrix product accumulated from zero
  and the host's contraction are the same finite sums, and a tiling of the rows changes nothing, so region by region
  the kernel program's arrays are the reference's stages and the two results are equal whatever the inputs hold: the
  precondition is not used. The frames of the two kernel programs are the generated ones; the reference's frame is
  its run with the results dropped; nothing was rewritten by the idealization, so there is nothing to preserve.
-/
import proofs.«174093_j15590731285056_1_alg».proof.Defs
import proofs.«174093_j15590731285056_1_alg».proof.Proof.Gen.Kernel
import proofs.«174093_j15590731285056_1_alg».proof.Proof.Gen.Kernel.Skeleton
import proofs.«174093_j15590731285056_1_alg».proof.Proof.Gen.Kernel.Launch
import proofs.«174093_j15590731285056_1_alg».proof.Proof.Gen.Kernel.Points
import proofs.«174093_j15590731285056_1_alg».proof.Proof.Gen.Kernel.Frame
import proofs.«174093_j15590731285056_1_alg».proof.Proof.Gen.KernelIdeal
import proofs.«174093_j15590731285056_1_alg».proof.Proof.Gen.KernelIdeal.Skeleton
import proofs.«174093_j15590731285056_1_alg».proof.Proof.Gen.KernelIdeal.Launch
import proofs.«174093_j15590731285056_1_alg».proof.Proof.Gen.KernelIdeal.Points
import proofs.«174093_j15590731285056_1_alg».proof.Proof.Gen.KernelIdeal.Frame
import proofs.«174093_j15590731285056_1_alg».proof.Proof.Gen.ReferenceIdeal
import proofs.«174093_j15590731285056_1_alg».proof.Proof.Gen.ReferenceIdeal.Run
import proofs.«174093_j15590731285056_1_alg».proof.Proof.Gen.ReferenceIdeal.Read
import proofs.«174093_j15590731285056_1_alg».proof.Proof.Gen.Pre_finite_inputs
import proofs.«174093_j15590731285056_1_alg».proof.Proof.KernelRun
import proofs.«174093_j15590731285056_1_alg».proof.Proof.KHost2
import proofs.«174093_j15590731285056_1_alg».proof.Proof.RHost
import proofs.«174093_j15590731285056_1_alg».proof.Proof.Agree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section
open Cert.KernelIdeal Cert.KernelIdeal.Gen Cert.Bridge

/-- The kernel program's run with its two results named: layer 2 of the network and its per-graph mean. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v56) = KHost.h3 m c
      ∧ r.2.mem ((c.tc : Thread nD τ).loc main_v68) = K.pool (KHost.h3 m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v56 (by decide))).trans (KHost.L7_v56 m ρ c),
      (h c _ (mem_uc main_v68 (by decide))).trans (KHost.L7_v68 m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩)
    (KRun.run_mem (F := Ideal) m ρ)

end

theorem algebraic : Cert.algebraic_KernelIdeal_ReferenceIdeal := by
  intro m ρ m' ρ' _ hagree
  refine ⟨fun c => Cert.Bridge.KHost.h3 m c,
    fun c => Cert.Bridge.K.pool (Cert.Bridge.KHost.h3 m c) (m ((c.tc : Thread Cert.KernelIdeal.nD Cert.KernelIdeal.τ).loc Cert.KernelIdeal.main_arg3)),
    kernel_run m ρ, ?_⟩
  refine (θ_run Cert.ReferenceIdeal.defs _ _).mono (fun _ h c => ?_) (Cert.ReferenceIdeal.Value.run (F := Ideal) m' ρ')
  obtain ⟨h0, h1, hargs⟩ := h c
  refine ⟨h0.trans ?_, h1.trans ?_, hargs⟩
  · rw [Cert.Bridge.RHost.res0_eq]
    exact Cert.Bridge.h3_agree m m' c (hagree c)
  · rw [Cert.Bridge.RHost.res1_eq]
    exact Cert.Bridge.pool_agree m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
